-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S256x1024 : Shape := ⟨2, ![256, 1024]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1024, .f32⟩
  | .local _ .vmem, ⟨3, _⟩ => ⟨S1024x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1x256x1024, .f32⟩
  | .local _ .vmem, ⟨10, _⟩ => ⟨S1x256x1024, .f32⟩
  | .local _ .vmem, ⟨11, _⟩ => ⟨S2048x1024, .bf16⟩
  | .local _ .vmem, ⟨12, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_28 : BitVec 32 := 0#32
  let c256_i32_29 : BitVec 32 := 256#32
  let v67 : BitVec 32 := Scalar.muli c0_i32_28 c256_i32_29
  v67
def k0_off1 (c0_i32_28 : BitVec 32) : Fin 3 → Nat :=
  let c0_30 : Index := 0#32
  let c256_i32_29 : BitVec 32 := 256#32
  let v67 : BitVec 32 := Scalar.muli c0_i32_28 c256_i32_29
  let v68 : BitVec 32 := v67
  let v69 : Index := Scalar.indexCast v68
  let c0_31 : Index := 0#32
  ![0, v69.toNat, 0]
def k0_off2 (c0_i32_28 : BitVec 32) : Fin 2 → Nat :=
  let c256_i32_29 : BitVec 32 := 256#32
  let v67 : BitVec 32 := Scalar.muli c0_i32_28 c256_i32_29
  let v68 : BitVec 32 := v67
  let v84 : Index := Scalar.indexCast v68
  let c0_36 : Index := 0#32
  ![v84.toNat, 0]
def k0_mult2 : BitVec 32 :=
  let c1_i32 : BitVec 32 := 1#32
  let c256_i32_38 : BitVec 32 := 256#32
  let v93 : BitVec 32 := Scalar.muli c1_i32 c256_i32_38
  v93
def k0_mult3 : BitVec 32 :=
  let c2_i32 : BitVec 32 := 2#32
  let c256_i32_47 : BitVec 32 := 256#32
  let v119 : BitVec 32 := Scalar.muli c2_i32 c256_i32_47
  v119
def k0_mult4 : BitVec 32 :=
  let c3_i32 : BitVec 32 := 3#32
  let c256_i32_56 : BitVec 32 := 256#32
  let v145 : BitVec 32 := Scalar.muli c3_i32 c256_i32_56
  v145
def k0_mult5 : BitVec 32 :=
  let c4_i32 : BitVec 32 := 4#32
  let c256_i32_65 : BitVec 32 := 256#32
  let v171 : BitVec 32 := Scalar.muli c4_i32 c256_i32_65
  v171
def k0_mult6 : BitVec 32 :=
  let c5_i32 : BitVec 32 := 5#32
  let c256_i32_74 : BitVec 32 := 256#32
  let v197 : BitVec 32 := Scalar.muli c5_i32 c256_i32_74
  v197
def k0_mult7 : BitVec 32 :=
  let c6_i32 : BitVec 32 := 6#32
  let c256_i32_83 : BitVec 32 := 256#32
  let v223 : BitVec 32 := Scalar.muli c6_i32 c256_i32_83
  v223
def k0_mult8 : BitVec 32 :=
  let c7_i32 : BitVec 32 := 7#32
  let c256_i32_92 : BitVec 32 := 256#32
  let v249 : BitVec 32 := Scalar.muli c7_i32 c256_i32_92
  v249
def k0_mult9 (i : grid0.Coords) : BitVec 32 :=
  let arg1 : BitVec 32 := BitVec.ofNat 32 (i 1).val
  let c256_i32 : BitVec 32 := 256#32
  let v3 : BitVec 32 := Scalar.muli arg1 c256_i32
  v3
def k0_off3 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x256x1024 : 0 < S1x256x1024.numel
  shapeCasts_S1x256x1024_S256x1024 : S1x256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  reduces_S256x1024_S256 : S256x1024.Reduces [1] S256
  broadcasts_S256x1_S256x1024 : S256x1.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 8), ∀ a, (k0_off1 (BitVec.ofNat 32 r.val)) a + S1x256x1024.size a ≤ S1x2048x1024.size a
  k0_off2_inb : ∀ i : grid0.Coords, ∀ (k0_h1 : k0_cond1 i = 1#1), ∀ (r : Fin 8), ∀ a, (k0_off2 (BitVec.ofNat 32 r.val)) a + S256x1024.size a ≤ S2048x1024.size a
  k0_off2_packedbf16 : ∀ i : grid0.Coords, ∀ (k0_h1 : k0_cond1 i = 1#1), ∀ (r : Fin 8), (Rect.unit (s := S2048x1024) (k0_off2 (BitVec.ofNat 32 r.val)) S256x1024.size (k0_off2_inb i k0_h1 r)).PackedRows (EltTy.packing .bf16)
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  k0_mult5_dvd : ∀ i : grid0.Coords, ∀ (k0_h1 : k0_cond1 i = 1#1), 256 ∣ k0_mult5.toNat
  k0_mult6_dvd : ∀ i : grid0.Coords, ∀ (k0_h1 : k0_cond1 i = 1#1), 256 ∣ k0_mult6.toNat
  k0_mult7_dvd : ∀ i : grid0.Coords, ∀ (k0_h1 : k0_cond1 i = 1#1), 256 ∣ k0_mult7.toNat
  k0_mult8_dvd : ∀ i : grid0.Coords, ∀ (k0_h1 : k0_cond1 i = 1#1), 256 ∣ k0_mult8.toNat
  k0_mult9_dvd : ∀ i : grid0.Coords, 256 ∣ (k0_mult9 i).toNat
  k0_off3_inb : ∀ i : grid0.Coords, ∀ a, (k0_off3 i) a + S1x256x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S4x2048x1024.size a
  hwx0_9 : ∀ i : grid0.Coords, EltTy.bits .f32 = 32 ∨ (Rect.block (s := S4x2048x1024) S1x256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x1024, .f32⟩
  | .hbm, ⟨68, _⟩ => ⟨S4x2048x1024, .f32⟩
  | .hbm, ⟨69, _⟩ => ⟨S1x1x1024, .f32⟩
  | .hbm, ⟨70, _⟩ => ⟨S4x2048x1024, .f32⟩
  | .hbm, ⟨71, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The mathematics both programs compute, written once, index by index, over the extended reals.

  For one batch element with rows x_s (s < 2048, each of 1024 entries):
    K_s = x_s·Wk + bk,  V_s = x_s·Wv + bv,  Q_q = x_q·Wq + bq            (three linear maps of a row)
    score_{q,s} = (Q_q · K_s) · c                                          (c is the scale 1/sqrt 1024)
    m_q = max_s score_{q,s},  p_{q,s} = exp (score_{q,s} − m_q),  w_{q,s} = p_{q,s} / Σ_s p_{q,s}
    a_q = Σ_s w_{q,s} V_s,   h_q = x_q + a_q
    out_q = γ · ((h_q − mean h_q) · rsqrt (var h_q + ε)) + β             (layer normalisation of h_q)
  The scalars c, the maximum's seed, the row length 1024 and ε are parameters here: each program spells them
  its own way and the bridge shows the spellings denote the same extended reals.
-/
import Idealize.ShloMosaic.PureOps.Ideal
import Idealize.ShloMosaic.Lib.ValueIdx

noncomputable section

namespace Cert.AttnSpec

open Idealize.ShloMosaic Idealize.ShloMosaic.ValueIdx

/-- A row times a weight matrix plus a bias, at output column `e`: (r·W + b)_e. -/
def proj (r : Fin 1024 → EReal) (W : Fin 1024 → Fin 1024 → EReal) (b : Fin 1024 → EReal) (e : Fin 1024) : EReal :=
  (∑ d : Fin 1024, r d * W d e) + b e

/-- The scaled inner product of a query row with key row `s`. -/
def score (c : EReal) (q : Fin 1024 → EReal) (K : Fin 2048 → Fin 1024 → EReal) (s : Fin 2048) : EReal :=
  (∑ e : Fin 1024, q e * K s e) * c

/-- The maximum of a row of scores, folded from the seed `ninf`. -/
def rowMax (ninf : EReal) (sc : Fin 2048 → EReal) : EReal :=
  (Finset.univ : Finset (Fin 2048)).fold max ninf sc

/-- The unnormalised softmax weight: exp (score − max). -/
def expw (ninf : EReal) (sc : Fin 2048 → EReal) (s : Fin 2048) : EReal :=
  Ideal.exp (sc s - rowMax ninf sc)

/-- The softmax weight: exp (score − max) over the sum of those. -/
def weight (ninf : EReal) (sc : Fin 2048 → EReal) (s : Fin 2048) : EReal :=
  Ideal.div (expw ninf sc s) (∑ s' : Fin 2048, expw ninf sc s')

/-- The attention output of one query row at column `e`: Σ_s w_s · V_{s,e}. -/
def attend (w : Fin 2048 → EReal) (V : Fin 2048 → Fin 1024 → EReal) (e : Fin 1024) : EReal :=
  ∑ s : Fin 2048, w s * V s e

/-- The mean of a row of 1024 entries, `n` the extended real 1024. -/
def mean (n : EReal) (h : Fin 1024 → EReal) : EReal :=
  Ideal.div (∑ e : Fin 1024, h e) n

/-- The variance of a row about its mean. -/
def var (n : EReal) (h : Fin 1024 → EReal) : EReal :=
  Ideal.div (∑ e : Fin 1024, (h e - mean n h) * (h e - mean n h)) n

/-- Layer normalisation of a row at column `e`: γ_e · ((h_e − mean) · rsqrt (var + ε)) + β_e. -/
def layerNorm (n eps : EReal) (γ β : Fin 1024 → EReal) (h : Fin 1024 → EReal) (e : Fin 1024) : EReal :=
  γ e * ((h e - mean n h) * Ideal.rsqrt (var n h + eps)) + β e

/-- One query row's result from the row itself (`xr`, for the residual), its projection `q`, and the keys and values of
    its batch element. -/
def rowOut (c ninf n eps : EReal) (γ β : Fin 1024 → EReal) (xr q : Fin 1024 → EReal)
    (K V : Fin 2048 → Fin 1024 → EReal) (e : Fin 1024) : EReal :=
  layerNorm n eps γ β (fun e' => xr e' + attend (weight ninf (score c q K)) V e') e

/-- The whole result: entry (b, q, e) from the argument arrays. -/
def G (c ninf n eps : EReal)
    (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (γ β : (⟨1, ![1024]⟩ : Shape).Idx → EReal) : (⟨3, ![4, 2048, 1024]⟩ : Shape).Idx → EReal := fun i =>
  rowOut c ninf n eps (fun e => γ (ix1 e)) (fun e => β (ix1 e))
    (fun d => x (ix3 (i 0) (i 1) d))
    (proj (fun d => x (ix3 (i 0) (i 1) d)) (fun d e => Wq (ix2 d e)) (fun e => bq (ix1 e)))
    (fun s => proj (fun d => x (ix3 (i 0) s d)) (fun d e => Wk (ix2 d e)) (fun e => bk (ix1 e)))
    (fun s => proj (fun d => x (ix3 (i 0) s d)) (fun d e => Wv (ix2 d e)) (fun e => bv (ix1 e)))
    (i 2)

end Cert.AttnSpec

end
-- ==== Proof.Chunk.lean ====
/-
  One 256-row chunk of a linear projection, at an entry. The kernel computes the keys and values of a batch element
  chunk by chunk: for the 256 rows of a chunk, (rows · W + b), a matrix product into a zero accumulator plus the bias
  broadcast along the rows. Read at row r and column e over the extended reals this is (Σ_d x_{r,d} · W_{d,e}) + b_e:
  the changes of float format are the identity and the accumulator contributes zero.
-/
import proofs.«177934_j16973710754005_2_alg».proof.Proof.Gen.KernelIdeal.Skeleton
import proofs.«177934_j16973710754005_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.AttnChunk

open Cert.KernelIdeal Cert.KernelIdeal.Gen

theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- A [256,1024] × [1024,1024] product into the zero accumulator, at (r, e): the sum over the shared axis. -/
theorem matmul_rows_apply (A : FVec Ideal S256x1024 .bf16) (W : FVec Ideal S1024x1024 .bf16) (r : Fin 256) (e : Fin 1024) :
    matmul dot_S256x1024_S1024x1024_S256x1024_1_0_0_1_n_n none A W (constant (F := Ideal) S256x1024 .f32 0x00000000#32) (ix2 r e)
      = ∑ d : Fin 1024, A (ix2 r d) * W (ix2 d e) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r e)
      ((contrEquiv1 dot_S256x1024_S1024x1024_S256x1024_1_0_0_1_n_n 1024 rfl rfl).symm k) = ix2 r k :=
    funext fun a => Fin.ext (by
      match a with
      | ⟨0, _⟩ => exact lhs_row _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 r e)
      ((contrEquiv1 dot_S256x1024_S1024x1024_S256x1024_1_0_0_1_n_n 1024 rfl rfl).symm k) = ix2 k e :=
    funext fun a => Fin.ext (by
      match a with
      | ⟨0, _⟩ => exact (dot_S256x1024_S1024x1024_S256x1024_1_0_0_1_n_n.rhsIdx_val_of_single rfl _ _).trans hk
      | ⟨1, _⟩ => exact rhs_col _ _)
  rw [el, er]

/-- A chunk of a projection at (r, e): the row of the chunk times column e of the weights, plus the bias at e. -/
theorem chunk_apply (W : Vec Ideal S1024x1024 .bf16) (xc : Vec Ideal S1x256x1024 .f32) (b : Vec Ideal S1024 .f32)
    (r : Fin 256) (e : Fin 1024) :
    k0_pay5 (F := Ideal) W xc b (ix2 r e)
      = Cert.AttnSpec.proj (fun d => xc (ix3 0 r d)) (fun d e' => W (ix2 d e')) (fun e' => b (ix1 e')) e := by
  unfold k0_pay5 k0_pay4 k0_pay2 Cert.AttnSpec.proj
  dsimp only
  rw [shapeCast_self, truncf_apply, addf_apply, matmul_rows_apply, broadcastTo_1b_ab_apply, shapeCast_a_1a_apply]
  congr 1
  refine Finset.sum_congr rfl fun d _ => ?_
  rw [truncf_apply, shapeCast_1ab_ab_apply, shapeCast_self]

end Cert.AttnChunk

end
-- ==== Proof.Cases.lean ====
/-
  What one grid point leaves in the two scratch buffers that carry the keys and the values of a batch element.
  At the first query tile of a batch element the body fills both buffers in eight stores of 256 rows each; store j
  writes rows 256·j … 256·j + 255, the projection of the same rows of the batch element's block of x. Read back,
  the buffer is therefore one function of the block: entry (s, e) is (Σ_d x_{s,d} · W_{d,e}) + b_e.
-/
import proofs.«177934_j16973710754005_2_alg».proof.Proof.Gen.KernelIdeal.Frame
import proofs.«177934_j16973710754005_2_alg».proof.Proof.Spec
import proofs.«177934_j16973710754005_2_alg».proof.Proof.Chunk
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.AttnCases

open Cert.KernelIdeal Cert.KernelIdeal.Gen

set_option maxRecDepth 16384

/-- A load of 256 consecutive rows, from row `o`, of a [1, 2048, 1024] buffer, read at (0, r, d): the buffer at (0, o + r, d). -/
theorem ld_rows_apply {Val : EltTy → Type} {e : EltTy} (X : S1x2048x1024.Idx → Val e) (off : Fin 3 → ℕ) (o : ℕ)
    (hoff : off = ![0, o, 0]) (inb : ∀ a, off a + S1x256x1024.size a ≤ S1x2048x1024.size a)
    (r : Fin 256) (d : Fin 1024) (k : Fin 2048) (hk : k.val = o + r.val) :
    View.ld X (Rect.unit (s := S1x2048x1024) off S1x256x1024.size inb) (ix3 (0 : Fin 1) r d) = X (ix3 (0 : Fin 1) k d) := by
  subst hoff
  show X _ = X _
  refine congrArg X (funext fun a => Fin.ext ?_)
  match a with
  | ⟨0, _⟩ => show 0 + 1 * 0 = 0; omega
  | ⟨1, _⟩ => show o + 1 * r.val = k.val; omega
  | ⟨2, _⟩ => show 0 + 1 * d.val = d.val; omega

/-- The keys (or values) of a batch element as one function of its block of x: row s is the projection of row s. -/
def kv (x : Vec Ideal S1x2048x1024 .f32) (W : Vec Ideal S1024x1024 .bf16) (b : Vec Ideal S1024 .f32) :
    Vec Ideal S2048x1024 .bf16 := fun j =>
  Cert.AttnSpec.proj (fun d => x (ix3 (0 : Fin 1) (j 0) d)) (fun d e' => W (ix2 d e')) (fun e' => b (ix1 e')) (j 1)

/-- One store of the fill: the chunk of rows from `o`, projected, is the block of `kv` its rectangle names. -/
theorem piece_eq (x : Vec Ideal S1x2048x1024 .f32) (W : Vec Ideal S1024x1024 .bf16) (b : Vec Ideal S1024 .f32) (o : ℕ)
    (off3 : Fin 3 → ℕ) (h3 : off3 = ![0, o, 0]) (inb3 : ∀ a, off3 a + S1x256x1024.size a ≤ S1x2048x1024.size a)
    (off2 : Fin 2 → ℕ) (h2 : off2 = ![o, 0]) (inb2 : ∀ a, off2 a + S256x1024.size a ≤ S2048x1024.size a)
    (y : (Rect.unit (s := S2048x1024) off2 S256x1024.size inb2).shape.Idx) :
    k0_pay5 (F := Ideal) W (View.ld x (Rect.unit (s := S1x2048x1024) off3 S1x256x1024.size inb3)) b y
      = kv x W b ((Rect.unit (s := S2048x1024) off2 S256x1024.size inb2).emb y) := by
  subst h2
  obtain ⟨r, e, rfl⟩ : ∃ (r : Fin 256) (e : Fin 1024), y = ix2 r e := ⟨y 0, y 1, eq_ix2 y⟩
  have hr : o + r.val < 2048 := by have h0 : o + 256 ≤ 2048 := inb2 0; have := r.isLt; omega
  rw [show ((Rect.unit (s := S2048x1024) ![o, 0] S256x1024.size inb2).emb (ix2 r e)) = ix2 (⟨o + r.val, hr⟩ : Fin 2048) e from
    funext fun a => Fin.ext (by
      match a with
      | ⟨0, _⟩ => show o + 1 * r.val = o + r.val; omega
      | ⟨1, _⟩ => show 0 + 1 * e.val = e.val; omega)]
  rw [Cert.AttnChunk.chunk_apply]
  unfold kv
  show Cert.AttnSpec.proj _ _ _ e = Cert.AttnSpec.proj _ _ _ e
  congr 1
  funext d
  exact ld_rows_apply x off3 o h3 inb3 r d ⟨o + r.val, hr⟩ rfl

end Cert.AttnCases

end
-- ==== Proof.CaseValues.lean ====
/-
  What each case of the body leaves, as values. At the first query tile of a batch element (case A) the two scratch
  buffers end as the keys and the values of the element's block of x, and the output tile is computed from them; at
  every other tile (case B) the scratch buffers are untouched and the output tile is computed from what they hold.
-/
import proofs.«177934_j16973710754005_2_alg».proof.Proof.Cases

noncomputable section

open Idealize.ShloMosaic Idealize.ShloMosaic.TcCoe Idealize.SL.Sem Idealize.ShloMosaic.ValueIdx

namespace Cert.AttnCases

open Cert.KernelIdeal Cert.KernelIdeal.Gen

set_option maxRecDepth 16384

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole-buffer load after stores that cover the buffer, each the block of one function `G` its rectangle names,
    reads `G`. -/
theorem readCov_fill {sig : RefSig} {κ : Kind} {sp : Space} (v : View sig κ sp S2048x1024 .bf16)
    (L : List (View.Piece (Elt Ideal) S2048x1024 .bf16)) (G : Vec Ideal S2048x1024 .bf16)
    (hp : ∀ p ∈ L, ∀ x : p.1.shape.Idx, p.2 x = G (p.1.emb x)) (hcov : ∀ y, ∃ p ∈ L, y ∈ p.1.set)
    (inb : ∀ a, (![0, 0] : Fin 2 → ℕ) a + S2048x1024.size a ≤ S2048x1024.size a) :
    v.readCov L (Rect.unit (s := S2048x1024) ![0, 0] S2048x1024.size inb).toLoadRect = G := by
  rw [View.readCov_eq_canon_ld _ _ _ hcov, View.ld_unit_zero hz2]
  exact funext fun y => View.canon_apply_of_pieces G L hp y (hcov y)

/-- Every store of case A's fill of scratch 0 writes the block of the projected rows its rectangle names. -/
theorem pieces_A_0 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (arg13 : Memref sig .tc .vmem S2048x1024 .bf16) (harg13 : arg13.IsWhole) (hc0 : cond0_0 i)
    (x0 : Vec Ideal S1x2048x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024 .f32) (x8 : Vec Ideal S1024 .f32) :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, ∀ x : p.1.shape.Idx, p.2 x = kv x0 x3 x4 (p.1.emb x) := by
  unfold kernelRun0_A
  dsimp only
  sl_unfold_words
  simp only [View.readAt_eq_ld, harg2.read_unread, harg5.read_unread, harg6.read_unread,
    View.ld_unit_zero (S := S1024x1024) hz2, View.ld_unit_zero (S := S1024) hz1]
  generalize x3 = W
  generalize x4 = b
  intro p hp
  simp only [List.mem_cons, List.not_mem_nil, or_false] at hp
  rcases hp with rfl | rfl | rfl | rfl | rfl | rfl | rfl | rfl
  · intro x; dsimp only at x ⊢; exact piece_eq x0 W b 1792 ![0, 1792, 0] rfl _ ![1792, 0] rfl _ x
  · intro x; dsimp only at x ⊢; exact piece_eq x0 W b 1536 ![0, 1536, 0] rfl _ ![1536, 0] rfl _ x
  · intro x; dsimp only at x ⊢; exact piece_eq x0 W b 1280 ![0, 1280, 0] rfl _ ![1280, 0] rfl _ x
  · intro x; dsimp only at x ⊢; exact piece_eq x0 W b 1024 ![0, 1024, 0] rfl _ ![1024, 0] rfl _ x
  · intro x; dsimp only at x ⊢; exact piece_eq x0 W b 768 ![0, 768, 0] rfl _ ![768, 0] rfl _ x
  · intro x; dsimp only at x ⊢; exact piece_eq x0 W b 512 ![0, 512, 0] rfl _ ![512, 0] rfl _ x
  · intro x; dsimp only at x ⊢; exact piece_eq x0 W b 256 ![0, 256, 0] rfl _ ![256, 0] rfl _ x
  · intro x; dsimp only at x ⊢; exact piece_eq x0 W b 0 ![0, 0, 0] rfl _ ![0, 0] rfl _ x

/-- So case A leaves the projection of the whole block in scratch 0. -/
theorem sout_A_0_eq (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (arg13 : Memref sig .tc .vmem S2048x1024 .bf16) (harg13 : arg13.IsWhole) (hc0 : cond0_0 i)
    (x0 : Vec Ideal S1x2048x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024 .f32) (x8 : Vec Ideal S1024 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = kv x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  exact funext fun y => View.canon_apply_of_pieces (kv x0 x3 x4) _ (pieces_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) y
    (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y)

/-- Every store of case A's fill of scratch 1 writes the block of the projected rows its rectangle names. -/
theorem pieces_A_1 (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (arg13 : Memref sig .tc .vmem S2048x1024 .bf16) (harg13 : arg13.IsWhole) (hc0 : cond0_0 i)
    (x0 : Vec Ideal S1x2048x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024 .f32) (x8 : Vec Ideal S1024 .f32) :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1, ∀ x : p.1.shape.Idx, p.2 x = kv x0 x5 x6 (p.1.emb x) := by
  unfold kernelRun0_A
  dsimp only
  sl_unfold_words
  simp only [View.readAt_eq_ld, harg2.read_unread, harg7.read_unread, harg8.read_unread,
    View.ld_unit_zero (S := S1024x1024) hz2, View.ld_unit_zero (S := S1024) hz1]
  generalize x5 = W
  generalize x6 = b
  intro p hp
  simp only [List.mem_cons, List.not_mem_nil, or_false] at hp
  rcases hp with rfl | rfl | rfl | rfl | rfl | rfl | rfl | rfl
  · intro x; dsimp only at x ⊢; exact piece_eq x0 W b 1792 ![0, 1792, 0] rfl _ ![1792, 0] rfl _ x
  · intro x; dsimp only at x ⊢; exact piece_eq x0 W b 1536 ![0, 1536, 0] rfl _ ![1536, 0] rfl _ x
  · intro x; dsimp only at x ⊢; exact piece_eq x0 W b 1280 ![0, 1280, 0] rfl _ ![1280, 0] rfl _ x
  · intro x; dsimp only at x ⊢; exact piece_eq x0 W b 1024 ![0, 1024, 0] rfl _ ![1024, 0] rfl _ x
  · intro x; dsimp only at x ⊢; exact piece_eq x0 W b 768 ![0, 768, 0] rfl _ ![768, 0] rfl _ x
  · intro x; dsimp only at x ⊢; exact piece_eq x0 W b 512 ![0, 512, 0] rfl _ ![512, 0] rfl _ x
  · intro x; dsimp only at x ⊢; exact piece_eq x0 W b 256 ![0, 256, 0] rfl _ ![256, 0] rfl _ x
  · intro x; dsimp only at x ⊢; exact piece_eq x0 W b 0 ![0, 0, 0] rfl _ ![0, 0] rfl _ x

/-- So case A leaves the projection of the whole block in scratch 1. -/
theorem sout_A_1_eq (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (arg13 : Memref sig .tc .vmem S2048x1024 .bf16) (harg13 : arg13.IsWhole) (hc0 : cond0_0 i)
    (x0 : Vec Ideal S1x2048x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024 .f32) (x8 : Vec Ideal S1024 .f32) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = kv x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  exact funext fun y => View.canon_apply_of_pieces (kv x0 x5 x6) _ (pieces_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) y
    (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y)

/-- Case B's output tile: the body's arithmetic of the tile's rows of x, the query weights and bias, what the scratch
    buffers held, and the normalisation's scale and shift. -/
theorem out_B_eq (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (arg13 : Memref sig .tc .vmem S2048x1024 .bf16) (harg13 : arg13.IsWhole) (hc0 : ¬cond0_0 i)
    (x0 : Vec Ideal S1x2048x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024 .f32) (x8 : Vec Ideal S1024 .f32) (xs0 xs1 : Vec Ideal S2048x1024 .bf16)
    (hinb : ∀ a, k0_off3 i a + S1x256x1024.size a ≤ S1x2048x1024.size a) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1
      = k0_pay1 (k0_pay34 (View.ld x0 (Rect.unit (s := S1x2048x1024) (k0_off3 i) S1x256x1024.size hinb)) x1 x2 xs0 xs1) (k0_pay35 (View.ld x0 (Rect.unit (s := S1x2048x1024) (k0_off3 i) S1x256x1024.size hinb)) x1 x2 xs0 xs1) k0_pay36 x7 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  sl_unfold_words
  rw [View.canon_unit_zero hz3]
  simp only [View.readAt_eq_ld, harg2.read_unread, harg3.read_unread, harg4.read_unread, harg9.read_unread,
    harg10.read_unread, harg12.read_unread, harg13.read_unread, View.ld_unit_zero (S := S1024x1024) hz2,
    View.ld_unit_zero (S := S1024) hz1, View.ld_unit_zero (S := S2048x1024) hz2]

/-- Case A's output tile: the same arithmetic, over the keys and values the same point has just stored. -/
theorem out_A_eq (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S2048x1024 .bf16) (harg12 : arg12.IsWhole) (arg13 : Memref sig .tc .vmem S2048x1024 .bf16) (harg13 : arg13.IsWhole) (hc0 : cond0_0 i)
    (x0 : Vec Ideal S1x2048x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024 .f32) (x8 : Vec Ideal S1024 .f32)
    (hinb : ∀ a, k0_off3 i a + S1x256x1024.size a ≤ S1x2048x1024.size a) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = k0_pay1 (k0_pay34 (View.ld x0 (Rect.unit (s := S1x2048x1024) (k0_off3 i) S1x256x1024.size hinb)) x1 x2 (kv x0 x3 x4) (kv x0 x5 x6)) (k0_pay35 (View.ld x0 (Rect.unit (s := S1x2048x1024) (k0_off3 i) S1x256x1024.size hinb)) x1 x2 (kv x0 x3 x4) (kv x0 x5 x6)) k0_pay36 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3]
  generalize hKK : View.readCov (Val := Elt Ideal) arg12.view _ _ = KK
  generalize hVV : View.readCov (Val := Elt Ideal) arg13.view _ _ = VV
  have eK : KK = kv x0 x3 x4 := hKK.symm.trans (readCov_fill arg12.view _ _
    (pieces_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) _)
  have eV : VV = kv x0 x5 x6 := hVV.symm.trans (readCov_fill arg13.view _ _
    (pieces_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) _)
  rw [eK, eV]
  simp only [View.readAt_eq_ld, harg2.read_unread, harg3.read_unread, harg4.read_unread, harg9.read_unread,
    harg10.read_unread, View.ld_unit_zero (S := S1024x1024) hz2, View.ld_unit_zero (S := S1024) hz1]

end Cert.AttnCases

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.BodyValue.lean ====
/-
  The attention half of the kernel's body at ONE entry of a block of rows, over the extended reals.

  For a tile of 256 query rows x_r (each of 1024 entries), the projection weights Wq, bq and the key and value rows
  K_s, V_s (s < 2048) the body computes, in this order,
    q_r     = x_r·Wq + bq                                  (a matrix product and a broadcast row)
    sc_{r,s} = (q_r · K_s) · c                             (a product contracting the two operands' columns)
    m_r     = max_s sc_{r,s},   p_{r,s} = exp (sc_{r,s} − m_r),   w_{r,s} = p_{r,s} / Σ_s p_{r,s}
    h_r     = x_r + Σ_s w_{r,s} V_s
  (the rows h_r are what the body then normalises). Each intermediate value is named below as a function of the
  body's inputs and read at an index given by coordinates: a matrix product as the sum over its one contraction
  coordinate, a row reduction as the sum or the fold of max over the lane coordinate, a broadcast row or column as
  the vector's entry. The last theorem, `attn_apply`, says the block of rows h at (r, e) is row r of the tile at e
  plus the specification's `attend` of the row's softmax weights and the value rows at column e.
-/
import proofs.«177934_j16973710754005_2_alg».proof.Proof.Gen.KernelIdeal.Skeleton
import proofs.«177934_j16973710754005_2_alg».proof.Proof.Spec
import proofs.«177934_j16973710754005_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.AttnBody

open Idealize.ShloMosaic Idealize.ShloMosaic.ValueIdx Cert.KernelIdeal Cert.KernelIdeal.Gen

/-! ## Broadcast rows and reduced lanes at coordinates -/

/-- A vector [b] cast to the row [1, b] and broadcast over a rows reads, at (i, j), the vector at j. -/
theorem row_apply {α : Type} {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (i : Fin a) (j : Fin b) :
    broadcastTo ⟨2, ![a, b]⟩ (shapeCast ⟨2, ![1, b]⟩ x h₁) h₂ (ix2 i j) = x (ix1 j) :=
  (broadcastTo_1b_ab_apply _ h₂ i j).trans (shapeCast_a_1a_apply x h₁ 0 j)

/-- The index a reduction of a matrix [a, b] along its lanes inserts coordinate k at, for the reduced index r: (r, k). -/
theorem lift_lane {a b : ℕ} (h : (⟨2, ![a, b]⟩ : Shape).Reduces [1] ⟨1, ![a]⟩) (r : Fin a) (k : Fin b) :
    h.lift (ix1 r) k = ix2 r k := by
  funext ax
  refine Fin.ext ?_
  match ax with
  | ⟨0, _⟩ => rfl
  | ⟨1, _⟩ => rfl

/-- A lane sum of a matrix [a, b], read at row r: the sum over the lane coordinate. -/
theorem laneSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ x 0x00000000#32 h hφ hacc (ix1 r) = ∑ k : Fin b, x (ix2 r k) := by
  refine (Ideal.multiReduction_add_single x 0x00000000#32 h hφ hacc (ix1 r)).trans ?_
  exact Finset.sum_congr rfl fun k _ => congrArg x (lift_lane h r k)

/-- A lane maximum of a matrix [a, b], read at row r: the fold of max over the lane coordinate from the seed. -/
theorem laneMax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ x 0xFF800000#32 h hφ hacc (ix1 r)
      = (Finset.univ : Finset (Fin b)).fold max (Ideal.ofBits .f32 0xFF800000#32) (fun k => x (ix2 r k)) := by
  refine (Ideal.multiReduction_maximumf_single x 0xFF800000#32 h hφ hacc (ix1 r)).trans ?_
  exact congrArg (fun f => (Finset.univ : Finset (Fin b)).fold max (Ideal.ofBits .f32 0xFF800000#32) f)
    (funext fun k => congrArg x (lift_lane h r k))

/-! ## The three matrix products at coordinates

Each product has ONE contraction axis and accumulates into the zero splat, so at an output index it is the sum over the
contraction coordinate of the operands' products. The operand indices the dimension numbers name are, coordinate by
coordinate, the output's row or column and the contraction coordinate. -/

/-- A product with one contraction axis of extent n, accumulated into zero, read at the output index j: the sum over the
    contraction coordinate k of the left operand at `L k` times the right operand at `R k`, once `L k` and `R k` are known
    to be the indices the dimension numbers make of j and k. -/
theorem dot_apply_of_idx {sl sr so : Shape} (D : DotDims sl sr so) (n : ℕ) (hr : D.contr.rank = 1)
    (hs : D.contr.size ⟨0, by omega⟩ = n) (x : FVec Ideal sl .bf16) (y : FVec Ideal sr .bf16) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    matmul D none x y (constant (F := Ideal) so .f32 0x00000000#32) j = ∑ k : Fin n, x (L k) * y (R k) := by
  simp only [matmul]
  rw [Ideal.matmul_constant_zero_apply, ← Equiv.sum_comp (contrEquiv1 D n hr hs).symm]
  exact Finset.sum_congr rfl fun k _ => by rw [hL k, hR k]

/-- The projection's product: the left operand's row coordinate is the output's. -/
theorem projDot_lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
/-- The projection's product: the right operand's column coordinate is the output's. -/
theorem projDot_rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl
/-- The projection's product [256, 1024] × [1024, 1024] at (r, c): Σ_k x_{r,k} · y_{k,c}. -/
theorem projDot_apply (x : FVec Ideal S256x1024 .bf16) (y : FVec Ideal S1024x1024 .bf16) (r : Fin 256) (c : Fin 1024) :
    matmul dot_S256x1024_S1024x1024_S256x1024_1_0_0_1_n_n none x y (constant (F := Ideal) S256x1024 .f32 0x00000000#32) (ix2 r c)
      = ∑ k : Fin 1024, x (ix2 r k) * y (ix2 k c) := by
  refine dot_apply_of_idx dot_S256x1024_S1024x1024_S256x1024_1_0_0_1_n_n 1024 rfl rfl x y (ix2 r c)
    (fun k => ix2 r k) (fun k => ix2 k c) (fun k => ?_) (fun k => ?_)
  · have hk := contrEquiv1_symm_val dot_S256x1024_S1024x1024_S256x1024_1_0_0_1_n_n 1024 rfl rfl k
    exact funext fun ax => Fin.ext (by
      match ax with
      | ⟨0, _⟩ => exact projDot_lhs_row _ _
      | ⟨1, _⟩ => exact (dot_S256x1024_S1024x1024_S256x1024_1_0_0_1_n_n.lhsIdx_val_of_single rfl _ _).trans hk)
  · have hk := contrEquiv1_symm_val dot_S256x1024_S1024x1024_S256x1024_1_0_0_1_n_n 1024 rfl rfl k
    exact funext fun ax => Fin.ext (by
      match ax with
      | ⟨0, _⟩ => exact (dot_S256x1024_S1024x1024_S256x1024_1_0_0_1_n_n.rhsIdx_val_of_single rfl _ _).trans hk
      | ⟨1, _⟩ => exact projDot_rhs_col _ _)

/-- The scores' product: the left operand's row coordinate is the output's row. -/
theorem scoreDot_lhs_row (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl
/-- The scores' product: the right operand's ROW coordinate is the output's column (the key row's number). -/
theorem scoreDot_rhs_row (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl
/-- The scores' product, contracting the columns of both operands, [256, 1024] × [2048, 1024] at (r, c): Σ_k x_{r,k} · y_{c,k}. -/
theorem scoreDot_apply (x : FVec Ideal S256x1024 .bf16) (y : FVec Ideal S2048x1024 .bf16) (r : Fin 256) (c : Fin 2048) :
    matmul dot_S256x1024_S2048x1024_S256x2048_1_1_0_0_n_n none x y (constant (F := Ideal) S256x2048 .f32 0x00000000#32) (ix2 r c)
      = ∑ k : Fin 1024, x (ix2 r k) * y (ix2 c k) := by
  refine dot_apply_of_idx dot_S256x1024_S2048x1024_S256x2048_1_1_0_0_n_n 1024 rfl rfl x y (ix2 r c)
    (fun k => ix2 r k) (fun k => ix2 c k) (fun k => ?_) (fun k => ?_)
  · have hk := contrEquiv1_symm_val dot_S256x1024_S2048x1024_S256x2048_1_1_0_0_n_n 1024 rfl rfl k
    exact funext fun ax => Fin.ext (by
      match ax with
      | ⟨0, _⟩ => exact scoreDot_lhs_row _ _
      | ⟨1, _⟩ => exact (dot_S256x1024_S2048x1024_S256x2048_1_1_0_0_n_n.lhsIdx_val_of_single rfl _ _).trans hk)
  · have hk := contrEquiv1_symm_val dot_S256x1024_S2048x1024_S256x2048_1_1_0_0_n_n 1024 rfl rfl k
    exact funext fun ax => Fin.ext (by
      match ax with
      | ⟨0, _⟩ => exact scoreDot_rhs_row _ _
      | ⟨1, _⟩ => exact (dot_S256x1024_S2048x1024_S256x2048_1_1_0_0_n_n.rhsIdx_val_of_single rfl _ _).trans hk)

/-- The weights' product with the value rows: the left operand's row coordinate is the output's. -/
theorem attendDot_lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
/-- The weights' product with the value rows: the right operand's column coordinate is the output's. -/
theorem attendDot_rhs_col (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl
/-- The weighted sum of the value rows, [256, 2048] × [2048, 1024] at (r, c): Σ_k x_{r,k} · y_{k,c}. -/
theorem attendDot_apply (x : FVec Ideal S256x2048 .bf16) (y : FVec Ideal S2048x1024 .bf16) (r : Fin 256) (c : Fin 1024) :
    matmul dot_S256x2048_S2048x1024_S256x1024_1_0_0_1_n_n none x y (constant (F := Ideal) S256x1024 .f32 0x00000000#32) (ix2 r c)
      = ∑ k : Fin 2048, x (ix2 r k) * y (ix2 k c) := by
  refine dot_apply_of_idx dot_S256x2048_S2048x1024_S256x1024_1_0_0_1_n_n 2048 rfl rfl x y (ix2 r c)
    (fun k => ix2 r k) (fun k => ix2 k c) (fun k => ?_) (fun k => ?_)
  · have hk := contrEquiv1_symm_val dot_S256x2048_S2048x1024_S256x1024_1_0_0_1_n_n 2048 rfl rfl k
    exact funext fun ax => Fin.ext (by
      match ax with
      | ⟨0, _⟩ => exact attendDot_lhs_row _ _
      | ⟨1, _⟩ => exact (dot_S256x2048_S2048x1024_S256x1024_1_0_0_1_n_n.lhsIdx_val_of_single rfl _ _).trans hk)
  · have hk := contrEquiv1_symm_val dot_S256x2048_S2048x1024_S256x1024_1_0_0_1_n_n 2048 rfl rfl k
    exact funext fun ax => Fin.ext (by
      match ax with
      | ⟨0, _⟩ => exact (dot_S256x2048_S2048x1024_S256x1024_1_0_0_1_n_n.rhsIdx_val_of_single rfl _ _).trans hk
      | ⟨1, _⟩ => exact attendDot_rhs_col _ _)

/-! ## Elementwise operations the index vocabulary does not name -/

/-- An exponential at an index is the exponential of the element. -/
theorem exp_apply {s : Shape} (x : FVec Ideal s .f32) (i : s.Idx) : Idealize.ShloMosaic.exp x i = Ideal.exp (x i) := rfl
/-- A scalar constant is the extended real its word encodes. -/
theorem scalar_ofBits (b : BitVec 32) : Scalar.ofBits (F := Ideal) .f32 b = Ideal.ofBits .f32 b := rfl

/-! ## The body's intermediate values, named, and each read at coordinates

The inputs: `v6` the tile of 256 rows of x, `v9` = Wq, `v12` = bq, `v17` and `v18` the key and value rows. On the
specification's side, row r of the tile, its query row, and its row of scores: -/

/-- The scale of the scores, 1/32. -/
abbrev cScale : EReal := Ideal.ofBits .f32 0x3D000000#32
/-- The seed of the row maximum, −∞. -/
abbrev negInf : EReal := Ideal.ofBits .f32 0xFF800000#32

/-- Row r of the tile. -/
abbrev xRow (v6 : Vec Ideal S1x256x1024 .f32) (r : Fin 256) : Fin 1024 → EReal := fun d => v6 (ix3 0 r d)
/-- Its query row x_r·Wq + bq. -/
abbrev qRow (v6 : Vec Ideal S1x256x1024 .f32) (v9 : Vec Ideal S1024x1024 .bf16) (v12 : Vec Ideal S1024 .f32) (r : Fin 256) :
    Fin 1024 → EReal :=
  AttnSpec.proj (xRow v6 r) (fun d e => v9 (ix2 d e)) (fun e => v12 (ix1 e))
/-- Its scores against the 2048 key rows. -/
abbrev scRow (v6 : Vec Ideal S1x256x1024 .f32) (v9 : Vec Ideal S1024x1024 .bf16) (v12 : Vec Ideal S1024 .f32)
    (v17 : Vec Ideal S2048x1024 .bf16) (r : Fin 256) : Fin 2048 → EReal :=
  AttnSpec.score cScale (qRow v6 v9 v12 r) (fun s e => v17 (ix2 s e))

/-- The tile as a matrix [256, 1024]. -/
def tileMat (v6 : Vec Ideal S1x256x1024 .f32) : FVec Ideal S256x1024 .f32 :=
  shapeCast S256x1024 v6 shapeCasts_S1x256x1024_S256x1024

theorem tileMat_apply (v6 : Vec Ideal S1x256x1024 .f32) (r : Fin 256) (d : Fin 1024) :
    tileMat v6 (ix2 r d) = xRow v6 r d :=
  shapeCast_1ab_ab_apply v6 shapeCasts_S1x256x1024_S256x1024 r d

/-- The query rows: the tile times Wq, plus the bias row on every row. -/
def queryMat (v6 : Vec Ideal S1x256x1024 .f32) (v9 : Vec Ideal S1024x1024 .bf16) (v12 : Vec Ideal S1024 .f32) :
    FVec Ideal S256x1024 .bf16 :=
  truncf .bf16
    (addf
      (matmul dot_S256x1024_S1024x1024_S256x1024_1_0_0_1_n_n none (truncf .bf16 (tileMat v6) bitsLt_bf16_f32)
        (shapeCast S1024x1024 v9 shapeCasts_S1024x1024_S1024x1024 : FVec Ideal S1024x1024 .bf16)
        (constant S256x1024 .f32 0x00000000#32))
      (broadcastTo S256x1024 (shapeCast S1x1024 v12 shapeCasts_S1024_S1x1024) broadcasts_S1x1024_S256x1024))
    bitsLt_bf16_f32

theorem queryMat_apply (v6 : Vec Ideal S1x256x1024 .f32) (v9 : Vec Ideal S1024x1024 .bf16) (v12 : Vec Ideal S1024 .f32)
    (r : Fin 256) (e : Fin 1024) : queryMat v6 v9 v12 (ix2 r e) = qRow v6 v9 v12 r e := by
  unfold queryMat qRow AttnSpec.proj
  rw [truncf_apply, addf_apply, projDot_apply, row_apply, shapeCast_self]
  refine congrArg (· + v12 (ix1 e)) (Finset.sum_congr rfl fun k _ => ?_)
  rw [truncf_apply, tileMat_apply]

/-- The scores: the query rows against the key rows, scaled. -/
def scoreMat (v6 : Vec Ideal S1x256x1024 .f32) (v9 : Vec Ideal S1024x1024 .bf16) (v12 : Vec Ideal S1024 .f32)
    (v17 : Vec Ideal S2048x1024 .bf16) : FVec Ideal S256x2048 .f32 :=
  mulf
    (matmul (φ₂ := .bf16) dot_S256x1024_S2048x1024_S256x2048_1_1_0_0_n_n none (queryMat v6 v9 v12) v17
      (constant S256x2048 .f32 0x00000000#32))
    (broadcast S256x2048 (Scalar.ofBits .f32 0x3D000000#32))

theorem scoreMat_apply (v6 : Vec Ideal S1x256x1024 .f32) (v9 : Vec Ideal S1024x1024 .bf16) (v12 : Vec Ideal S1024 .f32)
    (v17 : Vec Ideal S2048x1024 .bf16) (r : Fin 256) (s : Fin 2048) :
    scoreMat v6 v9 v12 v17 (ix2 r s) = scRow v6 v9 v12 v17 r s := by
  unfold scoreMat scRow AttnSpec.score
  rw [mulf_apply, scoreDot_apply, broadcast_apply, scalar_ofBits]
  refine congrArg (· * cScale) (Finset.sum_congr rfl fun k _ => ?_)
  rw [queryMat_apply]

/-- The row maxima of the scores. -/
def maxVec (v6 : Vec Ideal S1x256x1024 .f32) (v9 : Vec Ideal S1024x1024 .bf16) (v12 : Vec Ideal S1024 .f32)
    (v17 : Vec Ideal S2048x1024 .bf16) : FVec Ideal S256 .f32 :=
  multiReduction .maximumf [1] S256 (scoreMat v6 v9 v12 v17) 0xFF800000#32 reduces_S256x2048_S256 (.inl rfl) rfl

theorem maxVec_apply (v6 : Vec Ideal S1x256x1024 .f32) (v9 : Vec Ideal S1024x1024 .bf16) (v12 : Vec Ideal S1024 .f32)
    (v17 : Vec Ideal S2048x1024 .bf16) (r : Fin 256) :
    maxVec v6 v9 v12 v17 (ix1 r) = AttnSpec.rowMax negInf (scRow v6 v9 v12 v17 r) := by
  unfold maxVec AttnSpec.rowMax
  refine (laneMax_apply (scoreMat v6 v9 v12 v17) reduces_S256x2048_S256 (.inl rfl) rfl r).trans ?_
  exact congrArg (fun f => (Finset.univ : Finset (Fin 2048)).fold max negInf f)
    (funext fun s => scoreMat_apply v6 v9 v12 v17 r s)

/-- The unnormalised weights exp (score − row maximum). -/
def expMat (v6 : Vec Ideal S1x256x1024 .f32) (v9 : Vec Ideal S1024x1024 .bf16) (v12 : Vec Ideal S1024 .f32)
    (v17 : Vec Ideal S2048x1024 .bf16) : FVec Ideal S256x2048 .f32 :=
  Idealize.ShloMosaic.exp
    (subf (scoreMat v6 v9 v12 v17)
      (broadcastTo S256x2048 (shapeCast S256x1 (maxVec v6 v9 v12 v17) shapeCasts_S256_S256x1) broadcasts_S256x1_S256x2048))

theorem expMat_apply (v6 : Vec Ideal S1x256x1024 .f32) (v9 : Vec Ideal S1024x1024 .bf16) (v12 : Vec Ideal S1024 .f32)
    (v17 : Vec Ideal S2048x1024 .bf16) (r : Fin 256) (s : Fin 2048) :
    expMat v6 v9 v12 v17 (ix2 r s) = AttnSpec.expw negInf (scRow v6 v9 v12 v17 r) s := by
  unfold expMat AttnSpec.expw
  rw [exp_apply, subf_apply, scoreMat_apply, LibKeepdims.column_apply, maxVec_apply]

/-- The row sums of the unnormalised weights. -/
def sumVec (v6 : Vec Ideal S1x256x1024 .f32) (v9 : Vec Ideal S1024x1024 .bf16) (v12 : Vec Ideal S1024 .f32)
    (v17 : Vec Ideal S2048x1024 .bf16) : FVec Ideal S256 .f32 :=
  multiReduction .add [1] S256 (expMat v6 v9 v12 v17) 0x00000000#32 reduces_S256x2048_S256 (.inl rfl) rfl

theorem sumVec_apply (v6 : Vec Ideal S1x256x1024 .f32) (v9 : Vec Ideal S1024x1024 .bf16) (v12 : Vec Ideal S1024 .f32)
    (v17 : Vec Ideal S2048x1024 .bf16) (r : Fin 256) :
    sumVec v6 v9 v12 v17 (ix1 r) = ∑ s : Fin 2048, AttnSpec.expw negInf (scRow v6 v9 v12 v17 r) s := by
  unfold sumVec
  refine (laneSum_apply (expMat v6 v9 v12 v17) reduces_S256x2048_S256 (.inl rfl) rfl r).trans ?_
  exact Finset.sum_congr rfl fun s _ => expMat_apply v6 v9 v12 v17 r s

/-- The softmax weights. -/
def weightMat (v6 : Vec Ideal S1x256x1024 .f32) (v9 : Vec Ideal S1024x1024 .bf16) (v12 : Vec Ideal S1024 .f32)
    (v17 : Vec Ideal S2048x1024 .bf16) : FVec Ideal S256x2048 .bf16 :=
  truncf .bf16
    (divf (expMat v6 v9 v12 v17)
      (broadcastTo S256x2048 (shapeCast S256x1 (sumVec v6 v9 v12 v17) shapeCasts_S256_S256x1) broadcasts_S256x1_S256x2048))
    bitsLt_bf16_f32

theorem weightMat_apply (v6 : Vec Ideal S1x256x1024 .f32) (v9 : Vec Ideal S1024x1024 .bf16) (v12 : Vec Ideal S1024 .f32)
    (v17 : Vec Ideal S2048x1024 .bf16) (r : Fin 256) (s : Fin 2048) :
    weightMat v6 v9 v12 v17 (ix2 r s) = AttnSpec.weight negInf (scRow v6 v9 v12 v17 r) s := by
  unfold weightMat AttnSpec.weight
  rw [truncf_apply, divf_apply, expMat_apply, LibKeepdims.column_apply, sumVec_apply]

/-- The rows before normalisation: the tile plus the weighted sums of the value rows. -/
def hMat (v6 : Vec Ideal S1x256x1024 .f32) (v9 : Vec Ideal S1024x1024 .bf16) (v12 : Vec Ideal S1024 .f32)
    (v17 v18 : Vec Ideal S2048x1024 .bf16) : FVec Ideal S256x1024 .f32 :=
  addf (tileMat v6)
    (matmul (φ₂ := .bf16) dot_S256x2048_S2048x1024_S256x1024_1_0_0_1_n_n none (weightMat v6 v9 v12 v17) v18
      (constant S256x1024 .f32 0x00000000#32))

/-- Row r before normalisation, as the specification writes it. -/
abbrev hRow (v6 : Vec Ideal S1x256x1024 .f32) (v9 : Vec Ideal S1024x1024 .bf16) (v12 : Vec Ideal S1024 .f32)
    (v17 v18 : Vec Ideal S2048x1024 .bf16) (r : Fin 256) : Fin 1024 → EReal :=
  fun e => xRow v6 r e + AttnSpec.attend (AttnSpec.weight negInf (scRow v6 v9 v12 v17 r)) (fun s e' => v18 (ix2 s e')) e

theorem hMat_apply (v6 : Vec Ideal S1x256x1024 .f32) (v9 : Vec Ideal S1024x1024 .bf16) (v12 : Vec Ideal S1024 .f32)
    (v17 v18 : Vec Ideal S2048x1024 .bf16) (r : Fin 256) (e : Fin 1024) :
    hMat v6 v9 v12 v17 v18 (ix2 r e) = hRow v6 v9 v12 v17 v18 r e := by
  unfold hMat hRow AttnSpec.attend
  rw [addf_apply, tileMat_apply, attendDot_apply]
  refine congrArg (xRow v6 r e + ·) (Finset.sum_congr rfl fun s _ => ?_)
  rw [weightMat_apply]

/-- The body's residual payload is `hMat`: the same operations in the same order. -/
theorem pay34_eq (v6 : Vec Ideal S1x256x1024 .f32) (v9 : Vec Ideal S1024x1024 .bf16) (v12 : Vec Ideal S1024 .f32)
    (v17 v18 : Vec Ideal S2048x1024 .bf16) : k0_pay34 (F := Ideal) v6 v9 v12 v17 v18 = hMat v6 v9 v12 v17 v18 := rfl

/-- THE ATTENTION HALF AT AN ENTRY: the body's residual payload at (r, e) is row r of the tile at e plus the attention
    output of that row — the softmax weights of its scores against the key rows, applied to the value rows. -/
theorem attn_apply (v6 : Vec Ideal S1x256x1024 .f32) (v9 : Vec Ideal S1024x1024 .bf16) (v12 : Vec Ideal S1024 .f32)
    (v17 v18 : Vec Ideal S2048x1024 .bf16) (r : Fin 256) (e : Fin 1024) :
    k0_pay34 (F := Ideal) v6 v9 v12 v17 v18 (ValueIdx.ix2 r e)
      = v6 (ValueIdx.ix3 (0 : Fin 1) r e)
        + Cert.AttnSpec.attend
            (Cert.AttnSpec.weight (Ideal.ofBits .f32 0xFF800000#32)
              (Cert.AttnSpec.score (Ideal.ofBits .f32 0x3D000000#32)
                (Cert.AttnSpec.proj (fun d => v6 (ValueIdx.ix3 (0 : Fin 1) r d)) (fun d e' => v9 (ValueIdx.ix2 d e'))
                  (fun e' => v12 (ValueIdx.ix1 e')))
                (fun s e' => v17 (ValueIdx.ix2 s e'))))
            (fun s e' => v18 (ValueIdx.ix2 s e')) e :=
  (congrFun (pay34_eq v6 v9 v12 v17 v18) (ix2 r e)).trans (hMat_apply v6 v9 v12 v17 v18 r e)

end Cert.AttnBody

end
-- ==== Proof.NormValue.lean ====
/-
  The layer normalisation at the end of the kernel body, read at an index.

  The body holds a [256, 1024] tile h (one row per query row of the block), the lane sums of its rows kept as a
  [256, 1] column, and the row length 1024 as a column. From these it forms, per row, the mean μ = (Σ h) / 1024, the
  centred entries h − μ, the variance (Σ (h − μ)²) / 1024, and the result γ · ((h − μ) · rsqrt (var + ε)) + β, cast to a
  [1, 256, 1024] block. Read at (0, r, e) this is the specification's `layerNorm` of row r of h at column e: the
  pointwise operations read through, a column broadcast along the lanes reads the column's entry of the row, a vector
  broadcast over the rows reads its entry of the column, and a lane sum is the sum over the row's 1024 entries.
-/
import proofs.«177934_j16973710754005_2_alg».proof.Proof.Gen.KernelIdeal.Skeleton
import proofs.«177934_j16973710754005_2_alg».proof.Proof.Spec
import proofs.«177934_j16973710754005_2_alg».proof.Proof.LibKeepdims
import Idealize.ShloMosaic.Lib.ValueLayout
import Idealize.ShloMosaic.Lib.ValueIdx
import Idealize.ShloMosaic.PureOps.Ideal.Laws

noncomputable section

namespace Cert.AttnNorm

open Cert.KernelIdeal Cert.KernelIdeal.Gen Idealize.ShloMosaic Idealize.ShloMosaic.ValueIdx
open Cert.AttnSpec

/-- Two indices of rank 1, 2 or 3 are equal when their coordinates are, each by computation. -/
local macro "idx_rfl" : tactic =>
  `(tactic| (funext a; first
      | (match a with | ⟨0, _⟩ => rfl | ⟨1, _⟩ => rfl | ⟨2, _⟩ => rfl)
      | (match a with | ⟨0, _⟩ => rfl | ⟨1, _⟩ => rfl)
      | (match a with | ⟨0, _⟩ => rfl)
      | (match a with | ⟨0, _⟩ => exact Fin.ext rfl | ⟨1, _⟩ => exact Fin.ext rfl)))

/-! ## The non-pointwise operations at an index -/

/-- The reciprocal square root of a vector, at an index, is that of the element. -/
theorem rsqrt_apply {s : Shape} {φ : FTy} (a : FVec Ideal s φ) (i : s.Idx) : rsqrt a i = Ideal.rsqrt (a i) := rfl

/-- The row length as a column: every entry is the extended real the pattern of 1024 denotes. -/
theorem len_apply (i : S256x1.Idx) : k0_pay36 (F := Ideal) i = Ideal.ofBits .f32 0x44800000#32 := rfl

/-- A lane sum of a [256, 1024] tile kept as a [256, 1] column reads, at (r, u), the sum of row r. -/
theorem colsum_apply (w : FVec Ideal S256x1024 .f32) (r : Fin 256) (u : Fin 1) :
    shapeCast S256x1 (multiReduction (F := Ideal) .add [1] S256 w 0x00000000#32 reduces_S256x1024_S256 (.inl rfl) rfl)
        shapeCasts_S256_S256x1 (ix2 r u)
      = ∑ e' : Fin 1024, w (ix2 r e') := by
  refine (Cert.LibKeepdims.shapeCast_a_a1_apply _ shapeCasts_S256_S256x1 r u).trans ?_
  refine (Ideal.multiReduction_add_single w 0x00000000#32 reduces_S256x1024_S256 (.inl rfl) rfl (ix1 r)).trans ?_
  exact Finset.sum_congr rfl fun k _ => congrArg w (by idx_rfl)

/-- A vector of 1024 entries cast to one row and broadcast over 256 rows reads, at (r, e), its entry e. -/
theorem row_apply (v : Vec Ideal S1024 .f32) (r : Fin 256) (e : Fin 1024) :
    broadcastTo S256x1024 (shapeCast S1x1024 v shapeCasts_S1024_S1x1024) broadcasts_S1x1024_S256x1024 (ix2 r e)
      = v (ix1 e) :=
  (broadcastTo_1b_ab_apply _ broadcasts_S1x1024_S256x1024 r e).trans
    (shapeCast_a_1a_apply v shapeCasts_S1024_S1x1024 (0 : Fin 1) e)

/-- A [256, 1] column broadcast along 1024 lanes reads, at (r, e), the column's entry of row r. -/
theorem col_apply (c : FVec Ideal S256x1 .f32) (r : Fin 256) (e : Fin 1024) :
    broadcastTo S256x1024 c broadcasts_S256x1_S256x1024 (ix2 r e) = c (ix2 r (0 : Fin 1)) :=
  Cert.LibKeepdims.broadcastTo_a1_ab_apply c broadcasts_S256x1_S256x1024 r e

/-! ## The layer normalisation of a row -/

/-- The tail of the kernel body at (0, r, e), with the lane sums of h as the body computes them (the sum over the lanes
    kept as a column) and the row length as a column, is the layer normalisation of row r of h at column e. -/
theorem norm_apply (v33 : FVec Ideal S256x1024 .f32) (v52 v56 : Vec Ideal S1024 .f32) (r : Fin 256) (e : Fin 1024) :
    k0_pay1 (F := Ideal) v33
        (shapeCast S256x1 (multiReduction .add [1] S256 v33 0x00000000#32 reduces_S256x1024_S256 (.inl rfl) rfl)
          shapeCasts_S256_S256x1)
        k0_pay36 v52 v56 (ix3 (0 : Fin 1) r e)
      = layerNorm (Ideal.ofBits .f32 0x44800000#32) (Ideal.ofBits .f32 0x3A83126F#32)
          (fun e' => v52 (ix1 e')) (fun e' => v56 (ix1 e')) (fun e' => v33 (ix2 r e')) e := by
  unfold k0_pay1
  refine (shapeCast_ab_1ab_apply _ shapeCasts_S256x1024_S1x256x1024 (0 : Fin 1) r e).trans ?_
  simp only [addf_apply, mulf_apply, subf_apply, divf_apply, rsqrt_apply, broadcast_apply, col_apply, len_apply]
  rw [row_apply v52 r e, row_apply v56 r e, colsum_apply v33 r 0, colsum_apply _ r 0]
  simp only [mulf_apply, subf_apply, divf_apply, col_apply, len_apply]
  rw [colsum_apply v33 r 0]
  rfl

/-- The same with the tile and its lane sums as the body names them: the tile `k0_pay34` of the block's inputs and the
    column `k0_pay35` of its lane sums. -/
theorem norm_apply_pay (v6 : Vec Ideal S1x256x1024 .f32) (v9 : Vec Ideal S1024x1024 .bf16) (v12 : Vec Ideal S1024 .f32)
    (v17 v18 : Vec Ideal S2048x1024 .bf16) (v52 v56 : Vec Ideal S1024 .f32) (r : Fin 256) (e : Fin 1024) :
    k0_pay1 (F := Ideal) (k0_pay34 v6 v9 v12 v17 v18) (k0_pay35 v6 v9 v12 v17 v18) k0_pay36 v52 v56
        (ix3 (0 : Fin 1) r e)
      = layerNorm (Ideal.ofBits .f32 0x44800000#32) (Ideal.ofBits .f32 0x3A83126F#32)
          (fun e' => v52 (ix1 e')) (fun e' => v56 (ix1 e')) (fun e' => k0_pay34 v6 v9 v12 v17 v18 (ix2 r e')) e :=
  norm_apply (k0_pay34 v6 v9 v12 v17 v18) v52 v56 r e

end Cert.AttnNorm

end
-- ==== Proof.BodyAll.lean ====
/-
  The body's arithmetic at one entry of the output tile: the attention half (the row of x plus the weighted sum of the
  value rows) and the normalisation half (the row's layer normalisation, scaled and shifted) put together.
-/
import proofs.«177934_j16973710754005_2_alg».proof.Proof.BodyValue
import proofs.«177934_j16973710754005_2_alg».proof.Proof.NormValue

noncomputable section

open Idealize.ShloMosaic Idealize.ShloMosaic.TcCoe Idealize.SL.Sem Idealize.ShloMosaic.ValueIdx

namespace Cert.AttnBody

open Cert.KernelIdeal Cert.KernelIdeal.Gen

/-- Entry (r, e) of the tile the body stores, from the tile's rows of x, the query weights and bias, the keys and values
    held in the scratch buffers, and the normalisation's scale and shift. -/
theorem body_apply (v6 : Vec Ideal S1x256x1024 .f32) (v9 : Vec Ideal S1024x1024 .bf16) (v12 : Vec Ideal S1024 .f32)
    (v17 v18 : Vec Ideal S2048x1024 .bf16) (v52 v56 : Vec Ideal S1024 .f32) (r : Fin 256) (e : Fin 1024) :
    k0_pay1 (F := Ideal) (k0_pay34 v6 v9 v12 v17 v18) (k0_pay35 v6 v9 v12 v17 v18) k0_pay36 v52 v56 (ix3 (0 : Fin 1) r e)
      = Cert.AttnSpec.rowOut (Ideal.ofBits .f32 0x3D000000#32) (Ideal.ofBits .f32 0xFF800000#32) (Ideal.ofBits .f32 0x44800000#32) (Ideal.ofBits .f32 0x3A83126F#32)
          (fun e' => v52 (ix1 e')) (fun e' => v56 (ix1 e')) (fun d => v6 (ix3 (0 : Fin 1) r d))
          (Cert.AttnSpec.proj (fun d => v6 (ix3 (0 : Fin 1) r d)) (fun d e' => v9 (ix2 d e')) (fun e' => v12 (ix1 e')))
          (fun s e' => v17 (ix2 s e')) (fun s e' => v18 (ix2 s e')) e := by
  rw [Cert.AttnNorm.norm_apply_pay]
  unfold Cert.AttnSpec.rowOut
  rw [show (fun e' => k0_pay34 (F := Ideal) v6 v9 v12 v17 v18 (ix2 r e')) = _ from
    funext fun e' => Cert.AttnBody.attn_apply v6 v9 v12 v17 v18 r e']

end Cert.AttnBody

end
-- ==== Proof.Blocks.lean ====
/-
  Where the kernel's windows sit in their arrays, over the grid of 4 × 8 points (point t has batch t / 8 and tile t % 8).

  Window 0 stages the batch element's 2048 rows of x: block (t / 8, 0, 0) of blocks [1, 2048, 1024]. Windows 1 to 8 are
  whole arrays — the three weight matrices as the host narrowed them, their biases, and the two normalisation
  parameters — whose one block has index 0 on every axis at every point. Window 9 is the result, in blocks
  [1, 256, 1024]: block (t / 8, t % 8, 0). A block's entry j sits in the array at index × size + j on each axis, so
  the equations below are the decided block indices and linear arithmetic. At the exact values the host's narrowing
  of a weight matrix changes nothing, so those three arrays are the arguments themselves. Last, the result's blocks
  cover the result: entry (b, q, e) lies in the block of point 8·b + q / 256.
-/
import proofs.«177934_j16973710754005_2_alg».proof.Proof.Gen.KernelIdeal.Value
import Idealize.ShloMosaic.Lib.Pipeline.Value
import Idealize.ShloMosaic.Lib.StableHlo.Run
import Idealize.ShloMosaic.Lib.ValueIdx

noncomputable section

namespace Cert.AttnBlocks

open Idealize.ShloMosaic Idealize.ShloMosaic.TcCoe Idealize.SL.Sem Cert.KernelIdeal Cert.KernelIdeal.Gen

variable (m : (ℓ : Loc nD τ sig) → Buf (Elt Ideal) ℓ)

/-! ## The block indices, decided over the 32 points -/

/-- Window 0's block is the batch element's: (t / 8, 0, 0). -/
theorem idx0 : ∀ t : Fin cfg0.N, win0_0.index t (0 : Fin 3) = t.val / 8 ∧ win0_0.index t (1 : Fin 3) = 0
    ∧ win0_0.index t (2 : Fin 3) = 0 :=
  (by decide +kernel : ∀ t : Fin grid0.N, _)

/-- Windows 1 to 8 have one block, of index 0 on every axis. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)

/-- Window 9's block is the batch element's tile: (t / 8, t % 8, 0). -/
theorem idx9 : ∀ t : Fin cfg0.N, win0_9.index t (0 : Fin 3) = t.val / 8 ∧ win0_9.index t (1 : Fin 3) = t.val % 8
    ∧ win0_9.index t (2 : Fin 3) = 0 :=
  (by decide +kernel : ∀ t : Fin grid0.N, _)

/-- The second grid coordinate of point t is its tile, t % 8. -/
theorem coord1 : ∀ t : Fin cfg0.N, (grid0.coords t 1).val = t.val % 8 :=
  (by decide +kernel : ∀ t : Fin grid0.N, _)

/-! ## The whole-array windows: the block is the array -/

theorem iblk1_eq (c : Dev nD) (t : Fin cfg0.N) : (iblk m c 1 t : Vec Ideal S1024x1024 .bf16) = V m c main_v0 := by
  obtain ⟨e0, e1⟩ := idx1 t
  funext j
  unfold iblk
  rw [View.read_apply]
  show V m c main_v0 _ = V m c main_v0 j
  congr 1
  funext a
  apply Fin.ext
  match a with
  | ⟨0, _⟩ => show win0_1.index t (0 : Fin 2) * 1024 + 1 * (j 0).val = (j 0).val; rw [e0]; omega
  | ⟨1, _⟩ => show win0_1.index t (1 : Fin 2) * 1024 + 1 * (j 1).val = (j 1).val; rw [e1]; omega

theorem iblk2_eq (c : Dev nD) (t : Fin cfg0.N) : (iblk m c 2 t : Vec Ideal S1024 .f32) = V m c main_arg2 := by
  have e0 := idx2 t
  funext j
  unfold iblk
  rw [View.read_apply]
  show V m c main_arg2 _ = V m c main_arg2 j
  congr 1
  funext a
  apply Fin.ext
  match a with
  | ⟨0, _⟩ => show win0_2.index t (0 : Fin 1) * 1024 + 1 * (j 0).val = (j 0).val; rw [e0]; omega

theorem iblk3_eq (c : Dev nD) (t : Fin cfg0.N) : (iblk m c 3 t : Vec Ideal S1024x1024 .bf16) = V m c main_v1 := by
  obtain ⟨e0, e1⟩ := idx3 t
  funext j
  unfold iblk
  rw [View.read_apply]
  show V m c main_v1 _ = V m c main_v1 j
  congr 1
  funext a
  apply Fin.ext
  match a with
  | ⟨0, _⟩ => show win0_3.index t (0 : Fin 2) * 1024 + 1 * (j 0).val = (j 0).val; rw [e0]; omega
  | ⟨1, _⟩ => show win0_3.index t (1 : Fin 2) * 1024 + 1 * (j 1).val = (j 1).val; rw [e1]; omega

theorem iblk4_eq (c : Dev nD) (t : Fin cfg0.N) : (iblk m c 4 t : Vec Ideal S1024 .f32) = V m c main_arg4 := by
  have e0 := idx4 t
  funext j
  unfold iblk
  rw [View.read_apply]
  show V m c main_arg4 _ = V m c main_arg4 j
  congr 1
  funext a
  apply Fin.ext
  match a with
  | ⟨0, _⟩ => show win0_4.index t (0 : Fin 1) * 1024 + 1 * (j 0).val = (j 0).val; rw [e0]; omega

theorem iblk5_eq (c : Dev nD) (t : Fin cfg0.N) : (iblk m c 5 t : Vec Ideal S1024x1024 .bf16) = V m c main_v2 := by
  obtain ⟨e0, e1⟩ := idx5 t
  funext j
  unfold iblk
  rw [View.read_apply]
  show V m c main_v2 _ = V m c main_v2 j
  congr 1
  funext a
  apply Fin.ext
  match a with
  | ⟨0, _⟩ => show win0_5.index t (0 : Fin 2) * 1024 + 1 * (j 0).val = (j 0).val; rw [e0]; omega
  | ⟨1, _⟩ => show win0_5.index t (1 : Fin 2) * 1024 + 1 * (j 1).val = (j 1).val; rw [e1]; omega

theorem iblk6_eq (c : Dev nD) (t : Fin cfg0.N) : (iblk m c 6 t : Vec Ideal S1024 .f32) = V m c main_arg6 := by
  have e0 := idx6 t
  funext j
  unfold iblk
  rw [View.read_apply]
  show V m c main_arg6 _ = V m c main_arg6 j
  congr 1
  funext a
  apply Fin.ext
  match a with
  | ⟨0, _⟩ => show win0_6.index t (0 : Fin 1) * 1024 + 1 * (j 0).val = (j 0).val; rw [e0]; omega

theorem iblk7_eq (c : Dev nD) (t : Fin cfg0.N) : (iblk m c 7 t : Vec Ideal S1024 .f32) = V m c main_arg7 := by
  have e0 := idx7 t
  funext j
  unfold iblk
  rw [View.read_apply]
  show V m c main_arg7 _ = V m c main_arg7 j
  congr 1
  funext a
  apply Fin.ext
  match a with
  | ⟨0, _⟩ => show win0_7.index t (0 : Fin 1) * 1024 + 1 * (j 0).val = (j 0).val; rw [e0]; omega

theorem iblk8_eq (c : Dev nD) (t : Fin cfg0.N) : (iblk m c 8 t : Vec Ideal S1024 .f32) = V m c main_arg8 := by
  have e0 := idx8 t
  funext j
  unfold iblk
  rw [View.read_apply]
  show V m c main_arg8 _ = V m c main_arg8 j
  congr 1
  funext a
  apply Fin.ext
  match a with
  | ⟨0, _⟩ => show win0_8.index t (0 : Fin 1) * 1024 + 1 * (j 0).val = (j 0).val; rw [e0]; omega

/-! ## Window 0: the batch element's rows -/

/-- The staged block of x at (0, s, d) is x at (b, s, d), b the point's batch. -/
theorem iblk0_apply (c : Dev nD) (t : Fin cfg0.N) (b : Fin 4) (hb : b.val = t.val / 8) (s : Fin 2048) (d : Fin 1024) :
    (iblk m c 0 t : Vec Ideal S1x2048x1024 .f32) (ValueIdx.ix3 (0 : Fin 1) s d) = V m c main_arg0 (ValueIdx.ix3 b s d) := by
  obtain ⟨e0, e1, e2⟩ := idx0 t
  unfold iblk
  rw [View.read_apply]
  show V m c main_arg0 _ = V m c main_arg0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 2048 + 1 * s.val = s.val; rw [e1]; omega
  | ⟨2, _⟩ => show win0_0.index t (2 : Fin 3) * 1024 + 1 * d.val = d.val; rw [e2]; omega

/-! ## The host's narrowing of the weights is the identity on extended reals -/

theorem V_v0 (c : Dev nD) : (V m c main_v0 : S1024x1024.Idx → EReal) = m ((c : Thread nD τ).loc main_arg1) := by
  dsimp only [V, hostOps0]
  after_results
  rfl

theorem V_v1 (c : Dev nD) : (V m c main_v1 : S1024x1024.Idx → EReal) = m ((c : Thread nD τ).loc main_arg3) := by
  dsimp only [V, hostOps0]
  after_results
  rfl

theorem V_v2 (c : Dev nD) : (V m c main_v2 : S1024x1024.Idx → EReal) = m ((c : Thread nD τ).loc main_arg5) := by
  dsimp only [V, hostOps0]
  after_results
  rfl

/-! ## Window 9: the result's blocks, placed and covering -/

/-- Entry (u, r, e) of point t's block of the result sits at (b, q, e): b the point's batch, q = 256 · tile + r. -/
theorem emb9 (t : Fin cfg0.N) (b : Fin 4) (hb : b.val = t.val / 8) (u : Fin 1) (r : Fin 256) (e : Fin 1024) (q : Fin 2048)
    (hq : q.val = 256 * (t.val % 8) + r.val) :
    ((cfg0.win 9).blk t).view.emb (ValueIdx.ix3 u r e : S1x256x1024.Idx) = (ValueIdx.ix3 b q e : S4x2048x1024.Idx) := by
  obtain ⟨e0, e1, e2⟩ := idx9 t
  funext a
  apply Fin.ext
  match a with
  | ⟨0, _⟩ => show win0_9.index t (0 : Fin 3) * 1 + 1 * u.val = b.val; have := u.isLt; rw [e0, hb]; omega
  | ⟨1, _⟩ => show win0_9.index t (1 : Fin 3) * 256 + 1 * r.val = q.val; rw [e1, hq]; omega
  | ⟨2, _⟩ => show win0_9.index t (2 : Fin 3) * 1024 + 1 * e.val = e.val; rw [e2]; omega

/-- An index of the result is in point t's block iff each coordinate is in the block's range on its axis. -/
theorem mem_blk9 (t : Fin cfg0.N) (i : S4x2048x1024.Idx) :
    i ∈ ((cfg0.win 9).blk t).view.set ↔ ∀ a : Fin 3, win0_9.index t a * S1x256x1024.size a ≤ (i a).val
      ∧ (i a).val < win0_9.index t a * S1x256x1024.size a + S1x256x1024.size a := by
  show i ∈ ((View.whole main_v3).slice (win0_9.rect t)).set ↔ _
  rw [View.set_slice_whole, Rect.mem_set_unit]
  exact Iff.rfl

/-- Every index (b, q, e) of the result is in the block of the point 8·b + q / 256, which writes it back. -/
theorem cover9 : ∀ i : S4x2048x1024.Idx, ∃ t : Fin cfg0.N, (cfg0.win 9).flush t = true ∧ i ∈ ((cfg0.win 9).blk t).view.set := by
  intro i
  have h0 : (i 0).val < 4 := (i 0).isLt
  have h1 : (i 1).val < 2048 := (i 1).isLt
  have h2 : (i 2).val < 1024 := (i 2).isLt
  have hN : cfg0.N = 32 := N_0
  have hlt : 8 * (i 0).val + (i 1).val / 256 < cfg0.N := by rw [hN]; omega
  obtain ⟨e0, e1, e2⟩ := idx9 ⟨8 * (i 0).val + (i 1).val / 256, hlt⟩
  refine ⟨⟨8 * (i 0).val + (i 1).val / 256, hlt⟩, flush0_9 _, ?_⟩
  rw [mem_blk9]
  intro a
  match a with
  | ⟨0, _⟩ =>
    show win0_9.index ⟨8 * (i 0).val + (i 1).val / 256, hlt⟩ (0 : Fin 3) * 1 ≤ (i 0).val
      ∧ (i 0).val < win0_9.index ⟨8 * (i 0).val + (i 1).val / 256, hlt⟩ (0 : Fin 3) * 1 + 1
    rw [e0]
    show (8 * (i 0).val + (i 1).val / 256) / 8 * 1 ≤ (i 0).val ∧ (i 0).val < (8 * (i 0).val + (i 1).val / 256) / 8 * 1 + 1
    omega
  | ⟨1, _⟩ =>
    show win0_9.index ⟨8 * (i 0).val + (i 1).val / 256, hlt⟩ (1 : Fin 3) * 256 ≤ (i 1).val
      ∧ (i 1).val < win0_9.index ⟨8 * (i 0).val + (i 1).val / 256, hlt⟩ (1 : Fin 3) * 256 + 256
    rw [e1]
    show (8 * (i 0).val + (i 1).val / 256) % 8 * 256 ≤ (i 1).val ∧ (i 1).val < (8 * (i 0).val + (i 1).val / 256) % 8 * 256 + 256
    omega
  | ⟨2, _⟩ =>
    show win0_9.index ⟨8 * (i 0).val + (i 1).val / 256, hlt⟩ (2 : Fin 3) * 1024 ≤ (i 2).val
      ∧ (i 2).val < win0_9.index ⟨8 * (i 0).val + (i 1).val / 256, hlt⟩ (2 : Fin 3) * 1024 + 1024
    rw [e2]
    omega

end Cert.AttnBlocks

end
-- ==== Proof.KernelValue.lean ====
/-
  The kernel's result array as one function of the argument arrays.

  The grid has 32 points: point t works on batch element t / 8 and query tile t % 8. Two scratch buffers carry the keys
  and the values of the current batch element from its first tile to its last: after EVERY point t they hold the
  projections of batch element t / 8 (by induction on t: a first tile stores them, any other tile leaves them alone and
  has the same batch element as the point before). So the tile a point writes back is the specification's rows
  256·(t % 8) … 256·(t % 8) + 255 of batch element t / 8, the 32 tiles cover the array, and the array ends as the
  specification of the arguments.
-/
import proofs.«177934_j16973710754005_2_alg».proof.Proof.Gen.KernelIdeal.Value
import proofs.«177934_j16973710754005_2_alg».proof.Proof.CaseValues
import proofs.«177934_j16973710754005_2_alg».proof.Proof.BodyAll
import proofs.«177934_j16973710754005_2_alg».proof.Proof.Blocks

noncomputable section

open Idealize.ShloMosaic Idealize.ShloMosaic.TcCoe Idealize.SL.Sem Idealize.ShloMosaic.ValueIdx

namespace Cert.AttnKernel

open Cert.KernelIdeal Cert.KernelIdeal.Gen Cert.AttnCases Cert.AttnBlocks Cert.AttnBody
open Idealize.ShloMosaic.Pipeline (Dat)

set_option maxRecDepth 16384

variable (m : (ℓ : Loc nD τ sig) → Buf (Elt Ideal) ℓ) (ρ : Dev nD → PrngReg)

/-- The keys of batch element `b`, from the arrays as the region finds them. -/
def keys (c : Dev nD) (b : Fin 4) : Vec Ideal S2048x1024 .bf16 := fun j =>
  Cert.AttnSpec.proj (fun d => V m c main_arg0 (ix3 b (j 0) d)) (fun d e' => V m c main_v1 (ix2 d e'))
    (fun e' => V m c main_arg4 (ix1 e')) (j 1)

/-- The values of batch element `b`. -/
def vals (c : Dev nD) (b : Fin 4) : Vec Ideal S2048x1024 .bf16 := fun j =>
  Cert.AttnSpec.proj (fun d => V m c main_arg0 (ix3 b (j 0) d)) (fun d e' => V m c main_v2 (ix2 d e'))
    (fun e' => V m c main_arg6 (ix1 e')) (j 1)

/-- The projection of the block of x that a point of batch element `b` stages is the keys of `b`. -/
theorem kv_keys (c : Dev nD) (t : Fin cfg0.N) (b : Fin 4) (hb : b.val = t.val / 8) :
    kv (iblk m c 0 t) (iblk m c 3 t) (iblk m c 4 t) = keys m c b := by
  funext j
  unfold kv keys
  rw [iblk3_eq m c t, iblk4_eq m c t]
  refine congrArg (fun f => Cert.AttnSpec.proj f _ _ (j 1)) (funext fun d => ?_)
  exact iblk0_apply m c t b hb (j 0) d

theorem kv_vals (c : Dev nD) (t : Fin cfg0.N) (b : Fin 4) (hb : b.val = t.val / 8) :
    kv (iblk m c 0 t) (iblk m c 5 t) (iblk m c 6 t) = vals m c b := by
  funext j
  unfold kv vals
  rw [iblk5_eq m c t, iblk6_eq m c t]
  refine congrArg (fun f => Cert.AttnSpec.proj f _ _ (j 1)) (funext fun d => ?_)
  exact iblk0_apply m c t b hb (j 0) d

/-- After every point the scratch buffers hold the keys and values of the point's batch element. -/
theorem scratch_inv (c : Dev nD) : ∀ (n : ℕ) (h : n < cfg0.N) (b : Fin 4), b.val = n / 8 →
    (outsAt0 m c n h).2.1 = keys m c b ∧ (outsAt0 m c n h).2.2 = vals m c b
  | 0, h, b, hb => by
    rw [outsAt0_A m c ⟨0, h⟩ rfl]
    dsimp only
    exact ⟨(sout_A_0_eq ..).trans (kv_keys m c ⟨0, h⟩ b hb), (sout_A_1_eq ..).trans (kv_vals m c ⟨0, h⟩ b hb)⟩
  | n + 1, h, b, hb => by
    by_cases h0 : (n + 1) % 8 = 0
    · rw [outsAt0_A m c ⟨n + 1, h⟩ h0]
      dsimp only
      exact ⟨(sout_A_0_eq ..).trans (kv_keys m c ⟨n + 1, h⟩ b hb), (sout_A_1_eq ..).trans (kv_vals m c ⟨n + 1, h⟩ b hb)⟩
    · rw [outsAt0_B m c ⟨n + 1, h⟩ h0]
      dsimp only
      unfold sout0_B_0 sout0_B_1
      exact scratch_inv c n (Nat.lt_of_succ_lt h) b (by omega)

/-- The specification of the arrays as the region finds them (the weights already cast by the host). -/
def Gm (c : Dev nD) : S4x2048x1024.Idx → EReal :=
  Cert.AttnSpec.G (Ideal.ofBits .f32 0x3D000000#32) (Ideal.ofBits .f32 0xFF800000#32) (Ideal.ofBits .f32 0x44800000#32) (Ideal.ofBits .f32 0x3A83126F#32)
    (V m c main_arg0) (V m c main_v0) (V m c main_arg2) (V m c main_v1) (V m c main_arg4) (V m c main_v2) (V m c main_arg6)
    (V m c main_arg7) (V m c main_arg8)

/-- One entry of the tile point `t` computes is the specification at row 256·(t % 8) + r of batch element t / 8. -/
theorem tile_entry (c : Dev nD) (t : Fin cfg0.N) (b : Fin 4) (hb : b.val = t.val / 8)
    (hinb : ∀ a, k0_off3 (grid0.coords t) a + S1x256x1024.size a ≤ S1x2048x1024.size a)
    (r : Fin 256) (e : Fin 1024) (q : Fin 2048) (hq : q.val = 256 * (t.val % 8) + r.val) :
    k0_pay1 (F := Ideal)
        (k0_pay34 (View.ld (iblk m c 0 t) (Rect.unit (s := S1x2048x1024) (k0_off3 (grid0.coords t)) S1x256x1024.size hinb))
          (iblk m c 1 t) (iblk m c 2 t) (keys m c b) (vals m c b))
        (k0_pay35 (View.ld (iblk m c 0 t) (Rect.unit (s := S1x2048x1024) (k0_off3 (grid0.coords t)) S1x256x1024.size hinb))
          (iblk m c 1 t) (iblk m c 2 t) (keys m c b) (vals m c b))
        k0_pay36 (iblk m c 7 t) (iblk m c 8 t) (ix3 (0 : Fin 1) r e)
      = Gm m c (ix3 b q e) := by
  rw [body_apply]
  have hx : (fun d => View.ld (iblk m c 0 t) (Rect.unit (s := S1x2048x1024) (k0_off3 (grid0.coords t)) S1x256x1024.size hinb)
      (ix3 (0 : Fin 1) r d)) = fun d => V m c main_arg0 (ix3 b q d) :=
    funext fun d => (ld_rows_apply (iblk m c 0 t) _ (256 * (grid0.coords t 1).val) (k0_off3_eq _) hinb r d q
      (by rw [coord1 t]; exact hq)).trans (iblk0_apply m c t b hb q d)
  rw [hx, iblk1_eq m c t, iblk2_eq m c t, iblk7_eq m c t, iblk8_eq m c t]
  rfl

/-- So the tile, cut to what the write-back moves, is the specification read through the point's block. -/
theorem tile_eq (c : Dev nD) (t : Fin cfg0.N) (b : Fin 4) (hb : b.val = t.val / 8)
    (hinb : ∀ a, k0_off3 (grid0.coords t) a + S1x256x1024.size a ≤ S1x2048x1024.size a) :
    (cfg0.win 9).cut (grid0.coords t) (k0_pay1 (F := Ideal)
        (k0_pay34 (View.ld (iblk m c 0 t) (Rect.unit (s := S1x2048x1024) (k0_off3 (grid0.coords t)) S1x256x1024.size hinb))
          (iblk m c 1 t) (iblk m c 2 t) (keys m c b) (vals m c b))
        (k0_pay35 (View.ld (iblk m c 0 t) (Rect.unit (s := S1x2048x1024) (k0_off3 (grid0.coords t)) S1x256x1024.size hinb))
          (iblk m c 1 t) (iblk m c 2 t) (keys m c b) (vals m c b))
        k0_pay36 (iblk m c 7 t) (iblk m c 8 t))
      = ((cfg0.win 9).blk t).view.read (Elt Ideal) (Gm m c) := by
  have hN : t.val < 32 := lt_of_lt_of_eq t.isLt N_0
  funext j
  have hj0 : (j 0).val < 1 := (j 0).isLt
  have hj1 : (j 1).val < 256 := (j 1).isLt
  have hj2 : (j 2).val < 1024 := (j 2).isLt
  have ej : j = ix3 (0 : Fin 1) (⟨(j 1).val, hj1⟩ : Fin 256) (⟨(j 2).val, hj2⟩ : Fin 1024) := funext fun a => Fin.ext (by
    match a with
    | ⟨0, _⟩ => show (j 0).val = 0; omega
    | ⟨1, _⟩ => rfl
    | ⟨2, _⟩ => rfl)
  have hq : 256 * (t.val % 8) + (j 1).val < 2048 := by omega
  rw [ej, View.read_apply, emb9 t b hb 0 ⟨_, hj1⟩ ⟨_, hj2⟩ ⟨_, hq⟩ rfl]
  exact tile_entry m c t b hb hinb _ _ _ rfl

/-- What point `t` writes back is the specification read through its block. -/
theorem flushed_eq (c : Dev nD) (t : Fin cfg0.N) :
    (dats m 0 c).flushed 9 t = ((cfg0.win 9).blk t).view.read (Elt Ideal) (Gm m c) := by
  have hN : t.val < 32 := lt_of_lt_of_eq t.isLt N_0
  have hbv : t.val / 8 < 4 := by omega
  have hinb := k0_off3_inb (grid0.coords t)
  by_cases h0 : t.val % 8 = 0
  · rw [Cert.KernelIdeal.Value.flushed9_A m c t h0,
      out_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) hinb,
      kv_keys m c t ⟨t.val / 8, hbv⟩ rfl, kv_vals m c t ⟨t.val / 8, hbv⟩ rfl]
    exact tile_eq m c t ⟨t.val / 8, hbv⟩ rfl hinb
  · have hinv := scratch_inv m c (t.val - 1) (Nat.lt_of_le_of_lt (Nat.sub_le _ _) t.isLt) ⟨t.val / 8, hbv⟩
      (by show t.val / 8 = (t.val - 1) / 8; omega)
    rw [Cert.KernelIdeal.Value.flushed9_B m c t h0,
      out_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ hinb,
      hinv.1, hinv.2]
    exact tile_eq m c t ⟨t.val / 8, hbv⟩ rfl hinb

/-- The 32 tiles cover the result array, so it ends as the specification. -/
theorem final (c : Dev nD) : (dats m 0 c).arrAt 9 cfg0.N = Gm m c :=
  (dats m 0 c).arrAt_eq_of_cover 9 (Gm m c) (fun t _ => flushed_eq m c t) cover9

/-- The specification of the arrays as the region finds them is the specification of the arguments: the host's casts
    of the three weight matrices are the identity on the extended reals. -/
theorem Gm_eq (c : Dev nD) : Gm m c = Cert.AttnSpec.G (Ideal.ofBits .f32 0x3D000000#32) (Ideal.ofBits .f32 0xFF800000#32) (Ideal.ofBits .f32 0x44800000#32) (Ideal.ofBits .f32 0x3A83126F#32)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  unfold Gm
  rw [V_v0 m c, V_v1 m c, V_v2 m c, V_main_arg0 m c, V_main_arg2 m c, V_main_arg4 m c, V_main_arg6 m c, V_main_arg7 m c,
    V_main_arg8 m c]

/-- The run: the result array ends as the specification of the arguments, which end unchanged. -/
theorem run : θ_run defs (onTc (τ := τ) (main (F := Ideal))) ⟨m, fun _ => 0, ρ⟩ fun r => ∀ c : Dev nD,
      r.2.mem ((c : Thread nD τ).loc main_v3) = Cert.AttnSpec.G (Ideal.ofBits .f32 0x3D000000#32) (Ideal.ofBits .f32 0xFF800000#32) (Ideal.ofBits .f32 0x44800000#32) (Ideal.ofBits .f32 0x3A83126F#32)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1.trans (final m c)).trans (Gm_eq m c), (h c).2⟩)
    (Cert.KernelIdeal.Value.run_blocks m ρ)

end Cert.AttnKernel

end
-- ==== Proof.RefValue.lean ====
/-
  The reference side: the reference program's result array, read index by index, is the common specification `G` of the
  argument arrays (Spec.lean), over the extended reals.

  The reference computes, for each batch element, the three projections of every row, the scaled scores of a query row
  against every key row, their maximum (a fold of `max` from -∞, then once more `max` with -∞), the exponentials of the
  differences, their sum (from the initial value 0), the quotients, the weighted sum of the value rows, the residual sum with
  the input row, and the layer normalisation of that row. Each stage below is read at an index and identified with the
  specification's function of the same name; the spellings that differ are bridged where they occur:
    • the scale is written 1024 ^ (-1/2), which is the real 1/32 (`scale_eq`, the one place where the value a pattern denotes matters);
    • `max (-∞) (fold max (-∞) f) = fold max (-∞) f`, because the seed is below the fold;
    • a sum from the initial value `0` is the bare sum;
    • `(γ · (h − μ)) · r = γ · ((h − μ) · r)`.
-/
import proofs.«177934_j16973710754005_2_alg».proof.Proof.Gen.ReferenceIdeal.Read
import proofs.«177934_j16973710754005_2_alg».proof.Proof.Spec
import Idealize.ShloMosaic.PureOps.Ideal
import Idealize.ShloMosaic.PureOps.Ideal.Laws
import Idealize.ShloMosaic.PureOps.Reduce
import Idealize.ShloMosaic.Lib.ValueIdx

noncomputable section

namespace Cert.AttnRef

open Cert.ReferenceIdeal Cert.ReferenceIdeal.Gen Cert.ReferenceIdeal.Read Idealize.ShloMosaic Idealize.ShloMosaic.ValueIdx
open Cert.AttnSpec

/-! ## The scale: 1024 ^ (-1/2) is 1/32 -/

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `-0.5` denotes the real -1/2. -/
theorem ofBits_neg_half : Ideal.ofBits .f32 0xBF000000#32 = ((-(1 / 2) : ℝ) : EReal) := by
  simp [Ideal.ofBits, Ideal.ieee, -EReal.coe_mul]; norm_num

/-- The pattern of `0.03125` denotes the real 1/32. -/
theorem ofBits_inv32 : Ideal.ofBits .f32 0x3D000000#32 = ((1 / 32 : ℝ) : EReal) := by
  simp [Ideal.ofBits, Ideal.ieee, -EReal.coe_mul]; norm_num

/-- 1024 ^ (-1/2) = 1/32 on the reals: 1024 = 32², and (32²)^(-1/2) = 32^(-1). -/
theorem rpow_1024 : Real.rpow 1024 (-(1 / 2)) = 1 / 32 := by
  show (1024 : ℝ) ^ (-(1 / 2) : ℝ) = 1 / 32
  rw [show (1024 : ℝ) = (32 : ℝ) ^ (2 : ℝ) by norm_num, ← Real.rpow_mul (by norm_num)]
  rw [show (2 : ℝ) * (-(1 / 2)) = -1 by norm_num, Real.rpow_neg_one]
  norm_num

/-- The reference's scale `1024.0 ** -0.5` is the extended real the pattern of `0.03125` denotes. -/
theorem scale_eq :
    Ideal.pow (Ideal.ofBits .f32 0x44800000#32) (Ideal.ofBits .f32 0xBF000000#32) = Ideal.ofBits .f32 0x3D000000#32 := by
  rw [ofBits_1024, ofBits_neg_half, ofBits_inv32, Ideal.pow_coe_coe, rpow_1024]

/-! ## The arguments, and index equations -/

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024, .f32⟩ : BufTy).Contents (Elt Ideal)) (x8 : (⟨S1024, .f32⟩ : BufTy).Contents (Elt Ideal))

/-- Two indices of rank 1, 2 or 3 are equal when their coordinates are, each by computation. -/
local macro "idx_rfl" : tactic =>
  `(tactic| (funext a; first
      | (match a with | ⟨0, _⟩ => rfl | ⟨1, _⟩ => rfl | ⟨2, _⟩ => rfl)
      | (match a with | ⟨0, _⟩ => rfl | ⟨1, _⟩ => rfl)
      | (match a with | ⟨0, _⟩ => rfl)))

/-! ## The three projections -/

/-- A row times a weight matrix plus a bias, as the reference computes it (a `dot_general` plus a broadcast bias), is the
    specification's `proj`. Stated once for the three instances. -/
theorem proj_of (W : (⟨S1024x1024, .f32⟩ : BufTy).Contents (Elt Ideal)) (bias : (⟨S1024, .f32⟩ : BufTy).Contents (Elt Ideal))
    (b : Fin 4) (q : Fin 2048) (e : Fin 1024)
    (L : S4x2048x1024.Idx → Fin 1024 → S4x2048x1024.Idx) (R : S4x2048x1024.Idx → Fin 1024 → S1024x1024.Idx)
    (J : S4x2048x1024.Idx → S1024.Idx)
    (hL : ∀ k, L (ix3 b q e) k = ix3 b q k) (hR : ∀ k, R (ix3 b q e) k = ix2 k e) (hJ : J (ix3 b q e) = ix1 e) :
    (∑ k : Fin 1024, x0 (L (ix3 b q e) k) * W (R (ix3 b q e) k)) + bias (J (ix3 b q e))
      = proj (fun d => x0 (ix3 b q d)) (fun d e => W (ix2 d e)) (fun e => bias (ix1 e)) e := by
  unfold proj
  rw [hJ]
  exact congrArg (· + bias (ix1 e)) (Finset.sum_congr rfl fun k _ => by rw [hL k, hR k])

/-- The query projection at (b, q, e). -/
theorem q_apply (b : Fin 4) (q : Fin 2048) (e : Fin 1024) :
    val_main_v3 (F := Ideal) x0 x1 x2 (ix3 b q e)
      = proj (fun d => x0 (ix3 b q d)) (fun d e => x1 (ix2 d e)) (fun e => x2 (ix1 e)) e := by
  rw [val_main_v3_apply, val_main_v0_apply, val_main_v2_apply, val_main_v1_apply, Ideal.addf_def]
  exact proj_of x0 x1 x2 b q e lidx_main_v0 ridx_main_v0 (fun i => idx_main_v1 (idx_main_v2 i))
    (fun k => by idx_rfl) (fun k => by idx_rfl) (by idx_rfl)

/-- The key projection at (b, s, e). -/
theorem k_apply (b : Fin 4) (s : Fin 2048) (e : Fin 1024) :
    val_main_v7 (F := Ideal) x0 x3 x4 (ix3 b s e)
      = proj (fun d => x0 (ix3 b s d)) (fun d e => x3 (ix2 d e)) (fun e => x4 (ix1 e)) e := by
  rw [val_main_v7_apply, val_main_v4_apply, val_main_v6_apply, val_main_v5_apply, Ideal.addf_def]
  exact proj_of x0 x3 x4 b s e lidx_main_v4 ridx_main_v4 (fun i => idx_main_v5 (idx_main_v6 i))
    (fun k => by idx_rfl) (fun k => by idx_rfl) (by idx_rfl)

/-- The value projection at (b, s, e). -/
theorem v_apply (b : Fin 4) (s : Fin 2048) (e : Fin 1024) :
    val_main_v11 (F := Ideal) x0 x5 x6 (ix3 b s e)
      = proj (fun d => x0 (ix3 b s d)) (fun d e => x5 (ix2 d e)) (fun e => x6 (ix1 e)) e := by
  rw [val_main_v11_apply, val_main_v8_apply, val_main_v10_apply, val_main_v9_apply, Ideal.addf_def]
  exact proj_of x0 x5 x6 b s e lidx_main_v8 ridx_main_v8 (fun i => idx_main_v9 (idx_main_v10 i))
    (fun k => by idx_rfl) (fun k => by idx_rfl) (by idx_rfl)

/-! ## Scores -/

/-- The scale stage, at any index: 1024 ^ (-1/2), which is the pattern of 1/32. -/
theorem scale_apply (i : S4x2048x2048.Idx) :
    val_main_v14 (F := Ideal) i = Ideal.ofBits .f32 0x3D000000#32 := by
  rw [val_main_v14_apply, val_main_v12_apply, val_main_cst_apply, val_main_cst_0_apply, Ideal.hostPowf_def,
    Ideal.ofBits_def, Ideal.ofBits_def, scale_eq]

/-- The scaled score of query row (b, q) against key row s. -/
theorem score_apply (b : Fin 4) (q s : Fin 2048) :
    val_main_v15 (F := Ideal) x0 x1 x2 x3 x4 (ix3 b q s)
      = score (Ideal.ofBits .f32 0x3D000000#32)
          (proj (fun d => x0 (ix3 b q d)) (fun d e => x1 (ix2 d e)) (fun e => x2 (ix1 e)))
          (fun s => proj (fun d => x0 (ix3 b s d)) (fun d e => x3 (ix2 d e)) (fun e => x4 (ix1 e))) s := by
  rw [val_main_v15_apply, val_main_v13_apply, scale_apply, Ideal.mulf_def]
  unfold score
  refine congrArg (· * Ideal.ofBits .f32 0x3D000000#32) (Finset.sum_congr rfl fun k _ => ?_)
  rw [show lidx_main_v13 (ix3 b q s) k = ix3 b q k by idx_rfl, show ridx_main_v13 (ix3 b q s) k = ix3 b s k by idx_rfl,
    q_apply, k_apply]

/-! ## The row maximum -/

/-- The reduction with `maximum` over the key axis, read at (b, q): the fold of `max` from the initial value over the key
    rows. -/
theorem reduce_max_apply (b : Fin 4) (q : Fin 2048) :
    val_main_v16 (F := Ideal) x0 x1 x2 x3 x4 (ix2 b q)
      = (Finset.univ : Finset (Fin 2048)).fold max (Ideal.ofBits .f32 0xFF800000#32)
          (fun s => val_main_v15 (F := Ideal) x0 x1 x2 x3 x4 (ix3 b q s)) := by
  unfold val_main_v16
  generalize val_main_v15 (F := Ideal) x0 x1 x2 x3 x4 = y
  refine (Host.reduce_eq_fold_single _ y _ reducesTo_S4x2048x2048_S4x2048_d2 (by decide) h_S_ (ix2 b q)).trans ?_
  show (Finset.univ : Finset (Fin 2048)).fold max (Ideal.ofBits .f32 0xFF800000#32) _ = _
  refine congrArg (fun f => (Finset.univ : Finset (Fin 2048)).fold max (Ideal.ofBits .f32 0xFF800000#32) f) ?_
  funext s
  exact congrArg y (by idx_rfl)

/-- The maximum the reference subtracts — `max` of -∞ and the fold from -∞ — is the specification's `rowMax`: the seed is
    below the fold, so the outer `max` is the fold. -/
theorem rowMax_apply (b : Fin 4) (q : Fin 2048) :
    val_main_v18 (F := Ideal) x0 x1 x2 x3 x4 (ix2 b q)
      = rowMax (Ideal.ofBits .f32 0xFF800000#32)
          (score (Ideal.ofBits .f32 0x3D000000#32)
            (proj (fun d => x0 (ix3 b q d)) (fun d e => x1 (ix2 d e)) (fun e => x2 (ix1 e)))
            (fun s => proj (fun d => x0 (ix3 b s d)) (fun d e => x3 (ix2 d e)) (fun e => x4 (ix1 e)))) := by
  rw [val_main_v18_apply, val_main_v17_apply, val_main_cst_2_apply, reduce_max_apply, Ideal.maximumf_def, Ideal.ofBits_def]
  unfold rowMax
  rw [max_eq_right ((Finset.le_fold_max _).mpr (Or.inl le_rfl))]
  exact congrArg (fun f => (Finset.univ : Finset (Fin 2048)).fold max (Ideal.ofBits .f32 0xFF800000#32) f)
    (funext fun s => score_apply x0 x1 x2 x3 x4 b q s)

/-! ## The softmax weights -/

/-- exp (score − max) at (b, q, s). -/
theorem expw_apply (b : Fin 4) (q s : Fin 2048) :
    val_main_v22 (F := Ideal) x0 x1 x2 x3 x4 (ix3 b q s)
      = expw (Ideal.ofBits .f32 0xFF800000#32)
          (score (Ideal.ofBits .f32 0x3D000000#32)
            (proj (fun d => x0 (ix3 b q d)) (fun d e => x1 (ix2 d e)) (fun e => x2 (ix1 e)))
            (fun s => proj (fun d => x0 (ix3 b s d)) (fun d e => x3 (ix2 d e)) (fun e => x4 (ix1 e)))) s := by
  rw [val_main_v22_apply, val_main_v21_apply, val_main_v20_apply, val_main_v19_apply,
    show idx_main_v19 (idx_main_v20 (ix3 b q s)) = ix2 b q by idx_rfl, rowMax_apply, score_apply,
    Ideal.hostUnary_exp_def, Ideal.subf_def]
  rfl

/-- exp (score − max) over the sum of those, at (b, q, s); the sum's initial value is 0. -/
theorem weight_apply (b : Fin 4) (q s : Fin 2048) :
    val_main_v26 (F := Ideal) x0 x1 x2 x3 x4 (ix3 b q s)
      = weight (Ideal.ofBits .f32 0xFF800000#32)
          (score (Ideal.ofBits .f32 0x3D000000#32)
            (proj (fun d => x0 (ix3 b q d)) (fun d e => x1 (ix2 d e)) (fun e => x2 (ix1 e)))
            (fun s => proj (fun d => x0 (ix3 b s d)) (fun d e => x3 (ix2 d e)) (fun e => x4 (ix1 e)))) s := by
  rw [val_main_v26_apply, val_main_v25_apply, val_main_v24_apply, val_main_v23_apply, val_main_cst_3_apply,
    Ideal.ofBits_def, Ideal.ofBits_zero_f32, zero_add, expw_apply, Ideal.hostDivf_def]
  unfold weight
  refine congrArg (Ideal.div _) (Finset.sum_congr rfl fun k _ => ?_)
  rw [show idx_main_v23 (idx_main_v24 (idx_main_v25 (ix3 b q s))) k = ix3 b q k by idx_rfl, expw_apply]

/-! ## The attention output and the residual -/

/-- The row the layer normalisation is applied to, h_(b,q): the input row plus the attention output of query row (b, q),
    in the specification's functions. -/
abbrev hrow (b : Fin 4) (q : Fin 2048) : Fin 1024 → EReal := fun e' =>
  x0 (ix3 b q e') + attend (weight (Ideal.ofBits .f32 0xFF800000#32)
      (score (Ideal.ofBits .f32 0x3D000000#32)
        (proj (fun d => x0 (ix3 b q d)) (fun d e => x1 (ix2 d e)) (fun e => x2 (ix1 e)))
        (fun s => proj (fun d => x0 (ix3 b s d)) (fun d e => x3 (ix2 d e)) (fun e => x4 (ix1 e)))))
    (fun s => proj (fun d => x0 (ix3 b s d)) (fun d e => x5 (ix2 d e)) (fun e => x6 (ix1 e))) e'

/-- The residual sum at (b, q, e): the input plus the weighted sum of the value rows. -/
theorem resid_apply (b : Fin 4) (q : Fin 2048) (e : Fin 1024) :
    val_main_v28 (F := Ideal) x0 x1 x2 x3 x4 x5 x6 (ix3 b q e) = hrow x0 x1 x2 x3 x4 x5 x6 b q e := by
  rw [val_main_v28_apply, val_main_v27_apply, Ideal.addf_def]
  show _ = x0 (ix3 b q e) + attend _ _ e
  unfold attend
  refine congrArg (x0 (ix3 b q e) + ·) (Finset.sum_congr rfl fun k _ => ?_)
  rw [show lidx_main_v27 (ix3 b q e) k = ix3 b q k by idx_rfl, show ridx_main_v27 (ix3 b q e) k = ix3 b k e by idx_rfl,
    weight_apply, v_apply]

/-! ## The layer normalisation -/

/-- The mean of the row h_(b,q); the sum's initial value is 0, the divisor the pattern of 1024. -/
theorem mean_apply (b : Fin 4) (q : Fin 2048) (z : Fin 1) :
    val_main_v32 (F := Ideal) x0 x1 x2 x3 x4 x5 x6 (ix3 b q z)
      = mean (Ideal.ofBits .f32 0x44800000#32) (hrow x0 x1 x2 x3 x4 x5 x6 b q) := by
  rw [val_main_v32_apply, val_main_v30_apply, val_main_v29_apply, val_main_v31_apply, val_main_cst_4_apply,
    val_main_cst_5_apply, Ideal.ofBits_def, Ideal.ofBits_def, Ideal.ofBits_zero_f32, zero_add, Ideal.hostDivf_def]
  unfold mean
  refine congrArg (fun t => Ideal.div t (Ideal.ofBits .f32 0x44800000#32)) (Finset.sum_congr rfl fun k _ => ?_)
  rw [show idx_main_v29 (idx_main_v30 (ix3 b q z)) k = ix3 b q k by idx_rfl, resid_apply]

/-- The centred entry h_e − mean, as the variance reads it. -/
theorem centered_apply (b : Fin 4) (q : Fin 2048) (e : Fin 1024) :
    val_main_v34 (F := Ideal) x0 x1 x2 x3 x4 x5 x6 (ix3 b q e)
      = hrow x0 x1 x2 x3 x4 x5 x6 b q e - mean (Ideal.ofBits .f32 0x44800000#32) (hrow x0 x1 x2 x3 x4 x5 x6 b q) := by
  rw [val_main_v34_apply, val_main_v33_apply,
    show idx_main_v33 (ix3 b q e) = ix3 b q (⟨0, Nat.one_pos⟩ : Fin 1) by idx_rfl, mean_apply, resid_apply, Ideal.subf_def]

/-- The centred entry h_e − mean, as the normalisation reads it (the same mean, broadcast a second time). -/
theorem centered_apply' (b : Fin 4) (q : Fin 2048) (e : Fin 1024) :
    val_main_v41 (F := Ideal) x0 x1 x2 x3 x4 x5 x6 (ix3 b q e)
      = hrow x0 x1 x2 x3 x4 x5 x6 b q e - mean (Ideal.ofBits .f32 0x44800000#32) (hrow x0 x1 x2 x3 x4 x5 x6 b q) := by
  rw [val_main_v41_apply, val_main_v40_apply,
    show idx_main_v40 (ix3 b q e) = ix3 b q (⟨0, Nat.one_pos⟩ : Fin 1) by idx_rfl, mean_apply, resid_apply, Ideal.subf_def]

/-- The variance of the row h_(b,q) about its mean. -/
theorem var_apply (b : Fin 4) (q : Fin 2048) (z : Fin 1) :
    val_main_v39 (F := Ideal) x0 x1 x2 x3 x4 x5 x6 (ix3 b q z)
      = var (Ideal.ofBits .f32 0x44800000#32) (hrow x0 x1 x2 x3 x4 x5 x6 b q) := by
  rw [val_main_v39_apply, val_main_v37_apply, val_main_v36_apply, val_main_v38_apply, val_main_cst_6_apply,
    val_main_cst_7_apply, Ideal.ofBits_def, Ideal.ofBits_def, Ideal.ofBits_zero_f32, zero_add, Ideal.hostDivf_def]
  unfold var
  refine congrArg (fun t => Ideal.div t (Ideal.ofBits .f32 0x44800000#32)) (Finset.sum_congr rfl fun k _ => ?_)
  rw [show idx_main_v36 (idx_main_v37 (ix3 b q z)) k = ix3 b q k by idx_rfl, val_main_v35_apply, centered_apply,
    Ideal.mulf_def]

/-- The result at (b, q, e): the layer normalisation of h_(b,q). The reference multiplies (γ · (h − μ)) · rsqrt (…), the
    specification γ · ((h − μ) · rsqrt (…)). -/
theorem out_apply (b : Fin 4) (q : Fin 2048) (e : Fin 1024) :
    val_main_v52 (F := Ideal) x0 x1 x2 x3 x4 x5 x6 x7 x8 (ix3 b q e)
      = layerNorm (Ideal.ofBits .f32 0x44800000#32) (Ideal.ofBits .f32 0x3A83126F#32)
          (fun e => x7 (ix1 e)) (fun e => x8 (ix1 e)) (hrow x0 x1 x2 x3 x4 x5 x6 b q) e := by
  rw [val_main_v52_apply, val_main_v49_apply, val_main_v44_apply, val_main_v43_apply, val_main_v42_apply,
    val_main_v48_apply, val_main_v47_apply, val_main_v46_apply, val_main_v45_apply, val_main_cst_8_apply,
    val_main_v51_apply, val_main_v50_apply,
    show idx_main_v42 (idx_main_v43 (ix3 b q e)) = ix1 e by idx_rfl,
    show idx_main_v50 (idx_main_v51 (ix3 b q e)) = ix1 e by idx_rfl,
    show idx_main_v48 (ix3 b q e) = ix3 b q (⟨0, Nat.one_pos⟩ : Fin 1) by idx_rfl,
    var_apply, centered_apply']
  simp only [Ideal.addf_def, Ideal.mulf_def, Ideal.hostUnary_rsqrt_def, Ideal.ofBits_def]
  unfold layerNorm
  rw [mul_assoc]

/-! ## The reference is the specification -/

/-- The reference's result array is `G` of the argument arrays, with the scale the pattern of 1/32, the maximum's seed
    the pattern of -∞, the row length the pattern of 1024 and ε the pattern of 0.001. -/
theorem ref_eq :
    val_main_v52 (F := Ideal) x0 x1 x2 x3 x4 x5 x6 x7 x8
      = G (Ideal.ofBits .f32 0x3D000000#32) (Ideal.ofBits .f32 0xFF800000#32) (Ideal.ofBits .f32 0x44800000#32)
          (Ideal.ofBits .f32 0x3A83126F#32) x0 x1 x2 x3 x4 x5 x6 x7 x8 := by
  funext i
  obtain ⟨b, q, e, rfl⟩ : ∃ (b : Fin 4) (q : Fin 2048) (e : Fin 1024), i = ix3 b q e := ⟨i 0, i 1, i 2, eq_ix3 i⟩
  rw [out_apply]
  rfl

end Cert.AttnRef

end
-- ==== Proof.Claims.lean ====
/-
  The five claims from one fact about the kernel: that, run from any memory, the idealized kernel ends with its result array
  at the specification `G` of its own nine argument arrays and the arguments unchanged. The reference's run ends at the
  same `G` of ITS arguments (RefValue.lean), which are the kernel's by hypothesis; so the two results are equal.
-/
import proofs.«177934_j16973710754005_2_alg».proof.Defs
import proofs.«177934_j16973710754005_2_alg».proof.Proof.Gen.Kernel
import proofs.«177934_j16973710754005_2_alg».proof.Proof.Gen.Kernel.Frame
import proofs.«177934_j16973710754005_2_alg».proof.Proof.Gen.KernelIdeal
import proofs.«177934_j16973710754005_2_alg».proof.Proof.Gen.KernelIdeal.Frame
import proofs.«177934_j16973710754005_2_alg».proof.Proof.Gen.ReferenceIdeal
import proofs.«177934_j16973710754005_2_alg».proof.Proof.Gen.ReferenceIdeal.Run
import proofs.«177934_j16973710754005_2_alg».proof.Proof.Gen.ReferenceIdeal.Read
import proofs.«177934_j16973710754005_2_alg».proof.Proof.Gen.Pre_finite_inputs
import proofs.«177934_j16973710754005_2_alg».proof.Proof.Spec
import proofs.«177934_j16973710754005_2_alg».proof.Proof.RefValue

noncomputable section

namespace Cert.Proof.AttnClaims

open Idealize.ShloMosaic Idealize.ShloMosaic.TcCoe Idealize.SL.Sem

/-- The kernel-side fact the assembly takes: from any memory (zero counters, any PRNG state) every weakly fair execution
    of the idealized kernel terminates with the result array at `G` of the memory's nine argument arrays, in the order
    x, Wq, bq, Wk, bk, Wv, bv, γ, β, and the argument arrays unchanged. -/
abbrev KernelRunsToSpec : Prop :=
  ∀ (m : (ℓ : Loc Cert.KernelIdeal.nD Cert.KernelIdeal.τ Cert.KernelIdeal.sig) → Buf (Elt Ideal) ℓ)
    (ρ : Dev Cert.KernelIdeal.nD → PrngReg),
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v3)
        = Cert.AttnSpec.G (Ideal.ofBits .f32 0x3D000000#32) (Ideal.ofBits .f32 0xFF800000#32)
          (Ideal.ofBits .f32 0x44800000#32) (Ideal.ofBits .f32 0x3A83126F#32)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `G` of the kernel's arguments: the kernel by hypothesis, the reference because its result is
    `G` of its own arguments and those agree with the kernel's. -/
theorem algebraic_of (hrun : KernelRunsToSpec) : Cert.algebraic_KernelIdeal_ReferenceIdeal := by
  intro m ρ m' ρ' _ hagree
  refine ⟨fun c => Cert.AttnSpec.G (Ideal.ofBits .f32 0x3D000000#32) (Ideal.ofBits .f32 0xFF800000#32)
          (Ideal.ofBits .f32 0x44800000#32) (Ideal.ofBits .f32 0x3A83126F#32)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)), hrun m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v52_eq, Cert.AttnRef.ref_eq, h0, h1, h2, h3, h4, h5, h6, h7, h8]

theorem claim_of (hrun : KernelRunsToSpec) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hrun⟩

end Cert.Proof.AttnClaims

end
-- ==== Proof.lean ====
/-
  Fused self-attention with a residual layer normalisation, against its plain reference, over the extended reals.

  For every batch element both programs compute, from the rows x_s of the element: the keys K_s = x_s·Wk + bk, the values
  V_s = x_s·Wv + bv and the queries Q_q = x_q·Wq + bq; the scores (Q_q·K_s)/32; their row-wise softmax (the maximum
  subtracted before the exponential); the weighted sums of the values; the residual h_q = x_q + a_q; and the layer
  normalisation γ·((h_q − mean)·rsqrt(var + ε)) + β of each row. The kernel does this tile by tile over a 4 × 8 grid,
  keeping the keys and values of the current batch element in two scratch buffers it fills at the element's first tile;
  the reference does it with whole-array operations. On the extended reals every operation is exact and a change of
  float format is the identity, so the two agree entry by entry: the specification is Proof/Spec.lean, the reference's
  result is that function of its arguments (Proof/RefValue.lean), the kernel's result array ends as the same function of
  its arguments (Proof/KernelValue.lean, over Proof/Cases.lean, Proof/CaseValues.lean, Proof/Chunk.lean,
  Proof/BodyValue.lean, Proof/NormValue.lean, Proof/BodyAll.lean and Proof/Blocks.lean), and Proof/Claims.lean puts the
  five claims together. The spellings that differ — the scale written 1024^(−1/2) by the reference and 1/32 by the
  kernel, a maximum taken once more against −∞, sums started from 0, the order of two products — are bridged where
  they occur; nothing needs the inputs to be finite. The three frames are the generated runs; the ideal pass rewrote
  nothing, so the idealization claim is trivial.
-/
import proofs.«177934_j16973710754005_2_alg».proof.Defs
import proofs.«177934_j16973710754005_2_alg».proof.Proof.Gen.Kernel
import proofs.«177934_j16973710754005_2_alg».proof.Proof.Gen.Kernel.Skeleton
import proofs.«177934_j16973710754005_2_alg».proof.Proof.Gen.Kernel.Launch
import proofs.«177934_j16973710754005_2_alg».proof.Proof.Gen.Kernel.Points
import proofs.«177934_j16973710754005_2_alg».proof.Proof.Gen.Kernel.Frame
import proofs.«177934_j16973710754005_2_alg».proof.Proof.Gen.KernelIdeal
import proofs.«177934_j16973710754005_2_alg».proof.Proof.Gen.KernelIdeal.Skeleton
import proofs.«177934_j16973710754005_2_alg».proof.Proof.Gen.KernelIdeal.Launch
import proofs.«177934_j16973710754005_2_alg».proof.Proof.Gen.KernelIdeal.Points
import proofs.«177934_j16973710754005_2_alg».proof.Proof.Gen.KernelIdeal.Frame
import proofs.«177934_j16973710754005_2_alg».proof.Proof.Gen.ReferenceIdeal
import proofs.«177934_j16973710754005_2_alg».proof.Proof.Gen.KernelIdeal.Value
import proofs.«177934_j16973710754005_2_alg».proof.Proof.Gen.ReferenceIdeal.Run
import proofs.«177934_j16973710754005_2_alg».proof.Proof.Gen.ReferenceIdeal.Read
import proofs.«177934_j16973710754005_2_alg».proof.Proof.Gen.Pre_finite_inputs
import proofs.«177934_j16973710754005_2_alg».proof.Proof.KernelValue
import proofs.«177934_j16973710754005_2_alg».proof.Proof.Claims
import Idealize.ShloMosaic.Adequacy
import Idealize.ShloMosaic.Init

noncomputable section

namespace Cert.Proof

open Idealize.ShloMosaic Idealize.SL.Sem Cert.Kernel

/-- The kernel's run ends at the specification of its arguments (Proof/KernelValue.lean); with the reference's run at the
    same specification, the three generated frames and the trivial idealization claim, that is the whole claim. -/
theorem claim : Cert.Claim := Cert.Proof.AttnClaims.claim_of (fun m ρ => Cert.AttnKernel.run m ρ)

end Cert.Proof

end
